-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x1152 : S_.BroadcastsInDim S512x1152 (![] : Fin 0 → Fin S512x1152.rank)
  reducesTo_S512x1152_S_d0_1 : S512x1152.ReducesTo [0, 1] S_
  bcast_S_S1152 : S_.BroadcastsInDim S1152 (![] : Fin 0 → Fin S1152.rank)
  reducesTo_S1152_S_d0 : S1152.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1152 .f32 := Host.absf main_arg5
  let main_cst_6 : FVec F S_ .f32 := constant S_ .f32 0x7F800000#32
  let main_v20 : FVec F S512x1152 .f32 := broadcastInDim S512x1152 ![] bcast_S_S512x1152 main_cst_6
  let main_v21 : IVec S512x1152 1 := cmpf .olt main_v19 main_v20
  let main_c_7 : IVec S_ 1 := constantI S_ 1 1#1
  let main_v22 : IVec S_ 1 := (fun x v => Host.reduce IntOp.andi x v reducesTo_S512x1152_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S200000x128 .f32) (main_arg2 : IVec S200000x2 32) (main_arg3 : FVec F S384x512 .f32) (main_arg4 : FVec F S512 .f32) (main_arg5 : FVec F S512x1152 .f32) (main_arg6 : FVec F S1152 .f32) (main_arg7 : FVec F S512x512 .f32) (main_arg8 : FVec F S512 .f32) (main_arg9 : FVec F S512x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x512 .f32 := Host.absf main_arg3
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x512 : Shape := ⟨2, ![200000, 512]⟩
abbrev S1600x384 : Shape := ⟨2, ![1600, 384]⟩
abbrev S1600x512 : Shape := ⟨2, ![1600, 512]⟩
abbrev S1600x128 : Shape := ⟨2, ![1600, 128]⟩
abbrev S1x512 : Shape := ⟨2, ![1, 512]⟩
abbrev S1600x1152 : Shape := ⟨2, ![1600, 1152]⟩
abbrev S1x1152 : Shape := ⟨2, ![1, 1152]⟩
abbrev S50000x512 : Shape := ⟨2, ![50000, 512]⟩
abbrev S400000 : Shape := ⟨1, ![400000]⟩
abbrev S50000 : Shape := ⟨1, ![50000]⟩
abbrev S400000x1 : Shape := ⟨2, ![400000, 1]⟩
abbrev S50000x1 : Shape := ⟨2, ![50000, 1]⟩
abbrev S2000x512 : Shape := ⟨2, ![2000, 512]⟩
abbrev S2000x1 : Shape := ⟨2, ![2000, 1]⟩
abbrev S2000x128 : Shape := ⟨2, ![2000, 128]⟩
abbrev S1x128 : Shape := ⟨2, ![1, 128]⟩

abbrev nBuf : Space → Nat
  | .hbm => 81
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S50000x128, .bf16⟩
  | .hbm, ⟨16, _⟩ => ⟨S200000x128, .bf16⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x128, .bf16⟩
  | .hbm, ⟨26, _⟩ => ⟨S_, .i32⟩
  | .hbm, ⟨27, _⟩ => ⟨S200000, .i32⟩
  | .hbm, ⟨28, _⟩ => ⟨S200000, .i1⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S200000, .i32⟩
  | .hbm, ⟨33, _⟩ => ⟨S200000x1, .i32⟩
  | .hbm, ⟨34, _⟩ => ⟨S200000x128, .bf16⟩
  | .hbm, ⟨35, _⟩ => ⟨S200000x384, .bf16⟩
  | .hbm, ⟨36, _⟩ => ⟨S384x512, .bf16⟩
  | .hbm, ⟨37, _⟩ => ⟨S512x1152, .bf16⟩
  | .hbm, ⟨38, _⟩ => ⟨S200000x512, .bf16⟩
  | .hbm, ⟨39, _⟩ => ⟨S200000x128, .f32⟩
  | .hbm, ⟨40, _⟩ => ⟨S200000x512, .bf16⟩
  | .hbm, ⟨41, _⟩ => ⟨S200000x512, .f32⟩
  | .hbm, ⟨42, _⟩ => ⟨S200000x512, .f32⟩
  | .hbm, ⟨43, _⟩ => ⟨S_, .f32⟩
  | .hbm, ⟨44, _⟩ => ⟨S50000x512, .f32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S50000x512, .f32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S50000x512, .f32⟩
  | .hbm, ⟨63, _⟩ => ⟨S400000, .i32⟩
  | .hbm, ⟨64, _⟩ => ⟨S_, .f32⟩
  | .hbm, ⟨65, _⟩ => ⟨S400000, .f32⟩
  | .hbm, ⟨66, _⟩ => ⟨S_, .f32⟩
  | .hbm, ⟨67, _⟩ => ⟨S50000, .f32⟩
  | .hbm, ⟨68, _⟩ => ⟨S_, .i32⟩
  | .hbm, ⟨69, _⟩ => ⟨S400000, .i32⟩
  | .hbm, ⟨70, _⟩ => ⟨S400000, .i1⟩
  | .hbm, ⟨71, _⟩ => ⟨S_, .i32⟩
  | .hbm, ⟨72, _⟩ => ⟨S400000, .i32⟩
  | .hbm, ⟨73, _⟩ => ⟨S400000, .i32⟩
  | .hbm, ⟨74, _⟩ => ⟨S400000, .i32⟩
  | .hbm, ⟨75, _⟩ => ⟨S400000x1, .i32⟩
  | .hbm, ⟨76, _⟩ => ⟨S50000, .f32⟩
  | .hbm, ⟨77, _⟩ => ⟨S50000x1, .f32⟩
  | .hbm, ⟨78, _⟩ => ⟨S512x512, .bf16⟩
  | .hbm, ⟨79, _⟩ => ⟨S512x128, .bf16⟩
  | .hbm, ⟨80, _⟩ => ⟨S50000x128, .f32⟩
  | .local _ .vmem, ⟨0, _⟩ => ⟨S1600x384, .bf16⟩
  | .local _ .vmem, ⟨1, _⟩ => ⟨S1600x384, .bf16⟩
  | .local _ .vmem, ⟨2, _⟩ => ⟨S384x512, .bf16⟩
  | .local _ .vmem, ⟨3, _⟩ => ⟨S512, .f32⟩
  | .local _ .vmem, ⟨4, _⟩ => ⟨S512x1152, .bf16⟩
  | .local _ .vmem, ⟨5, _⟩ => ⟨S1152, .f32⟩
  | .local _ .vmem, ⟨6, _⟩ => ⟨S1600x512, .bf16⟩
  | .local _ .vmem, ⟨7, _⟩ => ⟨S1600x512, .bf16⟩
  | .local _ .vmem, ⟨8, _⟩ => ⟨S1600x128, .f32⟩
  | .local _ .vmem, ⟨9, _⟩ => ⟨S1600x128, .f32⟩
  | .local _ .vmem, ⟨10, _⟩ => ⟨S1600x512, .bf16⟩
  | .local _ .vmem, ⟨11, _⟩ => ⟨S1600x512, .bf16⟩
  | .local _ .vmem, ⟨12, _⟩ => ⟨S2000x512, .f32⟩
  | .local _ .vmem, ⟨13, _⟩ => ⟨S2000x512, .f32⟩
  | .local _ .vmem, ⟨14, _⟩ => ⟨S2000x1, .f32⟩
  | .local _ .vmem, ⟨15, _⟩ => ⟨S2000x1, .f32⟩
  | .local _ .vmem, ⟨16, _⟩ => ⟨S512x512, .bf16⟩
  | .local _ .vmem, ⟨17, _⟩ => ⟨S512, .f32⟩
  | .local _ .vmem, ⟨18, _⟩ => ⟨S512x128, .bf16⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1600x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1600x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1600x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bitsLt_bf16_f32 : FTy.bits .bf16 < FTy.bits .f32
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  inb_S1600x384_S1600x384_0_0 : ∀ a, (![0, 0] : Fin 2 → Nat) a + S1600x384.size a ≤ S1600x384.size a
  h_S1600x384 : 0 < S1600x384.numel
  shapeCasts_S1600x384_S1600x384 : S1600x384.ShapeCasts S1600x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S512_S512_0 : ∀ a, (![0] : Fin 1 → Nat) a + S512.size a ≤ S512.size a
  h_S512 : 0 < S512.numel
  shapeCasts_S512_S1x512 : S512.ShapeCasts S1x512
  broadcasts_S1x512_S1600x512 : S1x512.Broadcasts S1600x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1152_S1152_0 : ∀ a, (![0] : Fin 1 → Nat) a + S1152.size a ≤ S1152.size a
  h_S1152 : 0 < S1152.numel
  shapeCasts_S1152_S1x1152 : S1152.ShapeCasts S1x1152
  broadcasts_S1x1152_S1600x1152 : S1x1152.Broadcasts S1600x1152
  slices_S1600x1152_o0_0_S1600x512 : S1600x1152.Slices ![0, 0] S1600x512
  inb_S1600x512_S1600x512_0_0 : ∀ a, (![0, 0] : Fin 2 → Nat) a + S1600x512.size a ≤ S1600x512.size a
  h_S1600x512 : 0 < S1600x512.numel
  packedbf16_S1600x512_S1600x512_0_0 : (Rect.unit (s := S1600x512) ![0, 0] S1600x512.size inb_S1600x512_S1600x512_0_0).PackedRows (EltTy.packing .bf16)
  slices_S1600x1152_o0_512_S1600x128 : S1600x1152.Slices ![0, 512] S1600x128
  inb_S1600x128_S1600x128_0_0 : ∀ a, (![0, 0] : Fin 2 → Nat) a + S1600x128.size a ≤ S1600x128.size a
  h_S1600x128 : 0 < S1600x128.numel
  slices_S1600x1152_o0_640_S1600x512 : S1600x1152.Slices ![0, 640] S1600x512
  bcast_S_S50000x512 : S_.BroadcastsInDim S50000x512 (![] : Fin 0 → Fin S50000x512.rank)
  concatenates_S200000_S200000_S400000_d0 : Shape.Concatenates [S200000, S200000] S400000 0
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x128_S200000x1_S200000x128_1_0_n_n_0_1_1128_wf : GatherDims.WF S50000x128 S200000x1 S200000x128 [1] [0] [] [0] [] 1 ![1, 128]
  dot_S1600x384_S384x512_S1600x512_1_0_0_1_n_n_wf : DotDims.WF S1600x384 S384x512 S1600x512 [1] [0] [0] [1] [] []
  dot_S1600x512_S512x1152_S1600x1152_1_0_0_1_n_n_wf : DotDims.WF S1600x512 S512x1152 S1600x1152 [1] [0] [0] [1] [] []
  scatter_S50000x512_S200000x1_S200000x512_1_0_0_1_wf : ScatterDims.WF S50000x512 S200000x1 S200000x512 [1] [0] [0] 1
  scatter_S50000_S400000x1_S400000_n_0_0_1_wf : ScatterDims.WF S50000 S400000x1 S400000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x384.size a ≤ S200000x384.size a
  hwx0_0 : ∀ i : grid0.Coords, EltTy.bits .bf16 = 32 ∨ (Rect.block (s := S200000x384) S1600x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1152.size a ≤ S512x1152.size a
  hwx0_3 : ∀ i : grid0.Coords, EltTy.bits .bf16 = 32 ∨ (Rect.block (s := S512x1152) S512x1152.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152.size a ≤ S1152.size a
  hwx0_4 : ∀ i : grid0.Coords, EltTy.bits .f32 = 32 ∨ (Rect.block (s := S1152) S1152.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1600x512.size a ≤ S200000x512.size a
  hwx0_5 : ∀ i : grid0.Coords, EltTy.bits .bf16 = 32 ∨ (Rect.block (s := S200000x512) S1600x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1600x128.size a ≤ S200000x128.size a
  hwx0_6 : ∀ i : grid0.Coords, EltTy.bits .f32 = 32 ∨ (Rect.block (s := S200000x128) S1600x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1600x512.size a ≤ S200000x512.size a
  hwx0_7 : ∀ i : grid0.Coords, EltTy.bits .bf16 = 32 ∨ (Rect.block (s := S200000x512) S1600x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S1600x384_S384x512_S1600x512_1_0_0_1_n_n : DotDims S1600x384 S384x512 S1600x512 where
  lhsContracting := [1]
  rhsContracting := [0]
  lhsNonContracting := [0]
  rhsNonContracting := [1]
  lhsBatch := []
  rhsBatch := []
  wf := dot_S1600x384_S384x512_S1600x512_1_0_0_1_n_n_wf
def dot_S1600x512_S512x1152_S1600x1152_1_0_0_1_n_n : DotDims S1600x512 S512x1152 S1600x1152 where
  lhsContracting := [1]
  rhsContracting := [0]
  lhsNonContracting := [0]
  rhsNonContracting := [1]
  lhsBatch := []
  rhsBatch := []
  wf := dot_S1600x512_S512x1152_S1600x1152_1_0_0_1_n_n_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v20) S1600x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1152.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S1600x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S1600x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_2) S1600x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x512 : Shape := ⟨2, ![200000, 512]⟩
abbrev S1x512 : Shape := ⟨2, ![1, 512]⟩
abbrev S200000x1152 : Shape := ⟨2, ![200000, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x128, .f32⟩
  | .hbm, ⟨33, _⟩ => ⟨S200000x384, .f32⟩
  | .hbm, ⟨34, _⟩ => ⟨S200000x512, .f32⟩
  | .hbm, ⟨35, _⟩ => ⟨S1x512, .f32⟩
  | .hbm, ⟨36, _⟩ => ⟨S200000x512, .f32⟩
  | .hbm, ⟨37, _⟩ => ⟨S200000x512, .f32⟩
  | .hbm, ⟨38, _⟩ => ⟨S_, .f32⟩
  | .hbm, ⟨39, _⟩ => ⟨S200000x512, .f32⟩
  | .hbm, ⟨40, _⟩ => ⟨S200000x512, .f32⟩
  | .hbm, ⟨41, _⟩ => ⟨S200000x1152, .f32⟩
  | .hbm, ⟨42, _⟩ => ⟨S1x1152, .f32⟩
  | .hbm, ⟨43, _⟩ => ⟨S200000x1152, .f32⟩
  | .hbm, ⟨44, _⟩ => ⟨S200000x1152, .f32⟩
  | .hbm, ⟨45, _⟩ => ⟨S_, .f32⟩
  | .hbm, ⟨46, _⟩ => ⟨S200000x1152, .f32⟩
  | .hbm, ⟨47, _⟩ => ⟨S200000x1152, .f32⟩
  | .hbm, ⟨48, _⟩ => ⟨S200000x512, .f32⟩
  | .hbm, ⟨49, _⟩ => ⟨S200000x128, .f32⟩
  | .hbm, ⟨50, _⟩ => ⟨S200000x512, .f32⟩
  | .hbm, ⟨51, _⟩ => ⟨S_, .f32⟩
  | .hbm, ⟨52, _⟩ => ⟨S50000x512, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S50000x512, .f32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S50000x512, .f32⟩
  | .hbm, ⟨71, _⟩ => ⟨S_, .f32⟩
  | .hbm, ⟨72, _⟩ => ⟨S200000, .f32⟩
  | .hbm, ⟨73, _⟩ => ⟨S_, .f32⟩
  | .hbm, ⟨74, _⟩ => ⟨S50000, .f32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S50000, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S50000, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S50000x1, .f32⟩
  | .hbm, ⟨102, _⟩ => ⟨S50000x512, .f32⟩
  | .hbm, ⟨103, _⟩ => ⟨S50000x512, .f32⟩
  | .hbm, ⟨104, _⟩ => ⟨S50000x512, .f32⟩
  | .hbm, ⟨105, _⟩ => ⟨S1x512, .f32⟩
  | .hbm, ⟨106, _⟩ => ⟨S50000x512, .f32⟩
  | .hbm, ⟨107, _⟩ => ⟨S50000x512, .f32⟩
  | .hbm, ⟨108, _⟩ => ⟨S_, .f32⟩
  | .hbm, ⟨109, _⟩ => ⟨S50000x512, .f32⟩
  | .hbm, ⟨110, _⟩ => ⟨S50000x512, .f32⟩
  | .hbm, ⟨111, _⟩ => ⟨S50000x128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_cst : Ref sig .tc := ⟨.hbm, 108, rfl⟩
abbrev main_call3_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call4_cst : Ref sig .tc := ⟨.hbm, 115, rfl⟩
abbrev main_call4_v0 : Ref sig .tc := ⟨.hbm, 116, rfl⟩
abbrev main_v76 : Ref sig .tc := ⟨.hbm, 117, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1152_S1x1152_1 : S1152.BroadcastsInDim S1x1152 (![1] : Fin 1 → Fin S1x1152.rank)
  bcast_S1x1152_S200000x1152_0_1 : S1x1152.BroadcastsInDim S200000x1152 (![0, 1] : Fin 2 → Fin S200000x1152.rank)
  bcast_S_S200000x1152 : S_.BroadcastsInDim S200000x1152 (![] : Fin 0 → Fin S200000x1152.rank)
  slices_S200000x1152_S200000x512_0_0 : S200000x1152.Slices ![0, 0] S200000x512
  slices_S200000x1152_S200000x128_0_512 : S200000x1152.Slices ![0, 512] S200000x128
  slices_S200000x1152_S200000x512_0_640 : S200000x1152.Slices ![0, 640] S200000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S200000x1_S200000x128_1_0_n_n_0_1_1128_wf : GatherDims.WF S50000x128 S200000x1 S200000x128 [1] [0] [] [0] [] 1 ![1, 128]
  dot_S200000x384_S384x512_S200000x512_1_0_0_1_n_n_wf : DotDims.WF S200000x384 S384x512 S200000x512 [1] [0] [0] [1] [] []
  dot_S200000x512_S512x1152_S200000x1152_1_0_0_1_n_n_wf : DotDims.WF S200000x512 S512x1152 S200000x1152 [1] [0] [0] [1] [] []
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x512_S200000x512_1_0_0_1_n_n : DotDims S200000x384 S384x512 S200000x512 where
  lhsContracting := [1]
  rhsContracting := [0]
  lhsNonContracting := [0]
  rhsNonContracting := [1]
  lhsBatch := []
  rhsBatch := []
  wf := dot_S200000x384_S384x512_S200000x512_1_0_0_1_n_n_wf
def dot_S200000x512_S512x1152_S200000x1152_1_0_0_1_n_n : DotDims S200000x512 S512x1152 S200000x1152 where
  lhsContracting := [1]
  rhsContracting := [0]
  lhsNonContracting := [0]
  rhsNonContracting := [1]
  lhsBatch := []
  rhsBatch := []
  wf := dot_S200000x512_S512x1152_S200000x1152_1_0_0_1_n_n_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.Bits.Net1.lean ====
/-
  The first pallas_call (the edge network) of the kernel program as printed, as a pipeline the launch theorems can run,
  at any float instance. Its grid has 125 points; point t works on edge rows 1600·t … 1600·t + 1599. Five windows are read
  (the 1600 × 384 block of joined edge features, and the two weight matrices and two bias vectors whole, fetched once and
  kept), three are written (the 1600 × 512 subject messages, the 1600 × 128 new predicate vectors, the 1600 × 512 object
  messages), each by ONE store of the whole block. So what the body leaves in an output window's buffer is one pure
  function of the five input blocks; the body's triple is run symbolically once, on arbitrary whole buffers; and at every
  point each input buffer holds its window's block of the array as the region found it, whether the pipeline fetched it
  there or kept it from the first point. The contents `V` of the core's buffers at the region's entry are a parameter.
-/
import proofs.«134044_j3530463117740_2_alg».proof.Proof.Gen.Kernel.Launch
import proofs.«134044_j3530463117740_2_alg».proof.Proof.Gen.Kernel.Skeleton
import proofs.«134044_j3530463117740_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle of its array, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has `V`'s array there and leaves the block in place, the current staging
    buffer holds the block at every point (a window not fetched at a point has not moved since it was). -/
theorem held0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1: whatever proof data has `V`'s array there and leaves the block in place, the current staging
    buffer holds the block at every point (a window not fetched at a point has not moved since it was). -/
theorem held1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2: whatever proof data has `V`'s array there and leaves the block in place, the current staging
    buffer holds the block at every point (a window not fetched at a point has not moved since it was). -/
theorem held2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3: whatever proof data has `V`'s array there and leaves the block in place, the current staging
    buffer holds the block at every point (a window not fetched at a point has not moved since it was). -/
theorem held3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4: whatever proof data has `V`'s array there and leaves the block in place, the current staging
    buffer holds the block at every point (a window not fetched at a point has not moved since it was). -/
theorem held4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's rectangles: every load and store is of a whole buffer -/

abbrev whole_S1600x384 : Rect S1600x384 := Rect.unit (s := S1600x384) ![0, 0] S1600x384.size inb_S1600x384_S1600x384_0_0
abbrev whole_S384x512 : Rect S384x512 := Rect.unit (s := S384x512) ![0, 0] S384x512.size inb_S384x512_S384x512_0_0
abbrev whole_S512 : Rect S512 := Rect.unit (s := S512) ![0] S512.size inb_S512_S512_0
abbrev whole_S512x1152 : Rect S512x1152 := Rect.unit (s := S512x1152) ![0, 0] S512x1152.size inb_S512x1152_S512x1152_0_0
abbrev whole_S1152 : Rect S1152 := Rect.unit (s := S1152) ![0] S1152.size inb_S1152_S1152_0
abbrev whole_S1600x512 : Rect S1600x512 := Rect.unit (s := S1600x512) ![0, 0] S1600x512.size inb_S1600x512_S1600x512_0_0
abbrev whole_S1600x128 : Rect S1600x128 := Rect.unit (s := S1600x128) ![0, 0] S1600x128.size inb_S1600x128_S1600x128_0_0

/-! ## What the body leaves in the output buffers -/

/-- The subj window's buffer after the body: its one store, of the payload of the five loaded blocks. -/
def subjOut (x0 : Vec F S1600x384 .bf16) (x1 : Vec F S384x512 .bf16) (x2 : Vec F S512 .f32) (x3 : Vec F S512x1152 .bf16) (x4 : Vec F S1152 .f32) : Vec F S1600x512 .bf16 :=
  View.canon [⟨whole_S1600x512, k0_pay2 (View.ld x0 whole_S1600x384) (View.ld x1 whole_S384x512) (View.ld x2 whole_S512) (View.ld x3 whole_S512x1152) (View.ld x4 whole_S1152)⟩]

/-- That store covers the buffer. -/
theorem subjCover (p : Vec F S1600x512 .bf16) (y : S1600x512.Idx) :
    ∃ pc ∈ ([⟨whole_S1600x512, p⟩] : List (View.Piece (Elt F) S1600x512 .bf16)), y ∈ pc.1.set :=
  View.cover_of_tiled [⟨whole_S1600x512, p⟩] S1600x512.size (by rfl) y

/-- The pred window's buffer after the body: its one store, of the payload of the five loaded blocks. -/
def predOut (x0 : Vec F S1600x384 .bf16) (x1 : Vec F S384x512 .bf16) (x2 : Vec F S512 .f32) (x3 : Vec F S512x1152 .bf16) (x4 : Vec F S1152 .f32) : Vec F S1600x128 .f32 :=
  View.canon [⟨whole_S1600x128, k0_pay3 (View.ld x0 whole_S1600x384) (View.ld x1 whole_S384x512) (View.ld x2 whole_S512) (View.ld x3 whole_S512x1152) (View.ld x4 whole_S1152)⟩]

/-- That store covers the buffer. -/
theorem predCover (p : Vec F S1600x128 .f32) (y : S1600x128.Idx) :
    ∃ pc ∈ ([⟨whole_S1600x128, p⟩] : List (View.Piece (Elt F) S1600x128 .f32)), y ∈ pc.1.set :=
  View.cover_of_tiled [⟨whole_S1600x128, p⟩] S1600x128.size (by rfl) y

/-- The obj window's buffer after the body: its one store, of the payload of the five loaded blocks. -/
def objOut (x0 : Vec F S1600x384 .bf16) (x1 : Vec F S384x512 .bf16) (x2 : Vec F S512 .f32) (x3 : Vec F S512x1152 .bf16) (x4 : Vec F S1152 .f32) : Vec F S1600x512 .bf16 :=
  View.canon [⟨whole_S1600x512, k0_pay4 (View.ld x0 whole_S1600x384) (View.ld x1 whole_S384x512) (View.ld x2 whole_S512) (View.ld x3 whole_S512x1152) (View.ld x4 whole_S1152)⟩]

/-- That store covers the buffer. -/
theorem objCover (p : Vec F S1600x512 .bf16) (y : S1600x512.Idx) :
    ∃ pc ∈ ([⟨whole_S1600x512, p⟩] : List (View.Piece (Elt F) S1600x512 .bf16)), y ∈ pc.1.set :=
  View.cover_of_tiled [⟨whole_S1600x512, p⟩] S1600x512.size (by rfl) y

/-! ## The body's triple -/

set_option maxHeartbeats 4000000 in
/-- The body on whole buffers — the inputs' holding `x0 … x4`, the outputs' anything — returns with the inputs' as they
    were and each output's at its function of the inputs. -/
theorem body_triple (c : Dev nD) (E : Set ℕ) (i : grid0.Coords) (a1 : Memref sig .tc .vmem S1600x384 .bf16) (h1 : a1.IsWhole) (a2 : Memref sig .tc .vmem S384x512 .bf16) (h2 : a2.IsWhole) (a3 : Memref sig .tc .vmem S512 .f32) (h3 : a3.IsWhole) (a4 : Memref sig .tc .vmem S512x1152 .bf16) (h4 : a4.IsWhole) (a5 : Memref sig .tc .vmem S1152 .f32) (h5 : a5.IsWhole) (a6 : Memref sig .tc .vmem S1600x512 .bf16) (h6 : a6.IsWhole) (a7 : Memref sig .tc .vmem S1600x128 .f32) (h7 : a7.IsWhole) (a8 : Memref sig .tc .vmem S1600x512 .bf16) (h8 : a8.IsWhole)
    (x0 : Vec F S1600x384 .bf16) (x1 : Vec F S384x512 .bf16) (x2 : Vec F S512 .f32) (x3 : Vec F S512x1152 .bf16) (x4 : Vec F S1152 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
            ∗ owns (c : Thread nD τ) a6 fullShare (subjOut x0 x1 x2 x3 x4) ∗ owns (c : Thread nD τ) a7 fullShare (predOut x0 x1 x2 x3 x4) ∗ owns (c : Thread nD τ) a8 fullShare (objOut x0 x1 x2 x3 x4)) -∗ K ⟨⟩))
      ⊢ wp frame (wpE (defs₀ (F := F)) Variants.none c none) E (cc0__net1_kernel i a1 h1 a2 h2 a3 h3 a4 h4 a5 h5 a6 h6 a7 h7 a8 h8) K := by
  simp only [cc0__net1_kernel_eq_skeleton]; unfold cc0__net1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (subjCover _)
  isplitl [H6]
  · iexists _; isplitr
    swap; · iexact H6
    ipureintro
    exact View.read_writes_eq_canon _ _ _ (predCover _)
  iexists _; isplitr
  swap; · iexact H7
  ipureintro
  exact View.read_writes_eq_canon _ _ _ (objCover _)

/-! ## The pipeline's proof data -/

/-- On core `c`: the arrays as the region finds them; after the body at point `t` each input's buffer still at its
    block and each output's at its function of the five input blocks; no invariant beyond the scoped rest and the generator
    register, which the body does not touch; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => subjOut (blk V c 0 t) (blk V c 1 t) (blk V c 2 t) (blk V c 3 t) (blk V c 4 t)
    | ⟨6, _⟩ => predOut (blk V c 0 t) (blk V c 1 t) (blk V c 2 t) (blk V c 3 t) (blk V c 4 t)
    | ⟨7, _⟩ => objOut (blk V c 0 t) (blk V c 1 t) (blk V c 2 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = subjOut (blk V c 0 t) (blk V c 1 t) (blk V c 2 t) (blk V c 3 t) (blk V c 4 t) := by dsimp only [dat]
theorem after6 (c : Dev nD) (t : Fin cfg0.N) : (dat V c).after 6 t = predOut (blk V c 0 t) (blk V c 1 t) (blk V c 2 t) (blk V c 3 t) (blk V c 4 t) := by dsimp only [dat]
theorem after7 (c : Dev nD) (t : Fin cfg0.N) : (dat V c).after 7 t = objOut (blk V c 0 t) (blk V c 1 t) (blk V c 2 t) (blk V c 3 t) (blk V c 4 t) := by dsimp only [dat]

theorem held0 (c : Dev nD) (t : Fin cfg0.N) (d) : (dat V c).before 0 t d = blk V c 0 t :=
  held0_of V (dat V c) (dat_A V c 0) (after0 V c) t d
theorem held1 (c : Dev nD) (t : Fin cfg0.N) (d) : (dat V c).before 1 t d = blk V c 1 t :=
  held1_of V (dat V c) (dat_A V c 1) (after1 V c) t d
theorem held2 (c : Dev nD) (t : Fin cfg0.N) (d) : (dat V c).before 2 t d = blk V c 2 t :=
  held2_of V (dat V c) (dat_A V c 2) (after2 V c) t d
theorem held3 (c : Dev nD) (t : Fin cfg0.N) (d) : (dat V c).before 3 t d = blk V c 3 t :=
  held3_of V (dat V c) (dat_A V c 3) (after3 V c) t d
theorem held4 (c : Dev nD) (t : Fin cfg0.N) (d) : (dat V c).before 4 t d = blk V c 4 t :=
  held4_of V (dat V c) (dat_A V c 4) (after4 V c) t d

/-! ## The body obligation -/

/-- What the pipeline calls the body with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it must get back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- At any point the inputs' buffers hold their blocks, so the body's triple applies; the invariant and the core's dues
    pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorems' body obligation, at every point. -/
theorem body_obligation (c : Dev nD) : BodyObligation (dat (F := F) V c) (defs₀ (F := F)) Variants.none () Set.univ := fun t => by
  rw [bigSep_W0, bigSep_W0]
  exact body_at V c t

end Cert.Kernel.Net1

end
-- ==== Proof.Bits.Net2.lean ====
/-
  The second pallas_call (the node network) of the kernel program as printed, as a pipeline the launch theorems can run,
  at any float instance. Its grid has 25 points; point t works on node rows 2000·t … 2000·t + 1999. Six windows are read (the
  2000 × 512 block of pooled messages, the 2000 × 1 block of incidence counts, and the two weight matrices and two bias
  vectors whole, fetched once and kept), one is written (the 2000 × 128 new node vectors) by ONE store of the whole block.
  So what the body leaves in the output window's buffer is one pure function of the six input blocks; the body's triple is
  run symbolically once, on arbitrary whole buffers; and at every point each input buffer holds its window's block of the
  array as the region found it. The contents `V` of the core's buffers at the region's entry are a parameter.
-/
import proofs.«134044_j3530463117740_2_alg».proof.Proof.Gen.Kernel.Launch
import proofs.«134044_j3530463117740_2_alg».proof.Proof.Gen.Kernel.Skeleton
import proofs.«134044_j3530463117740_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle of its array, read off the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has `V`'s array there and leaves the block in place, the current staging
    buffer holds the block at every point (a window not fetched at a point has not moved since it was). -/
theorem held0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1: whatever proof data has `V`'s array there and leaves the block in place, the current staging
    buffer holds the block at every point (a window not fetched at a point has not moved since it was). -/
theorem held1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2: whatever proof data has `V`'s array there and leaves the block in place, the current staging
    buffer holds the block at every point (a window not fetched at a point has not moved since it was). -/
theorem held2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3: whatever proof data has `V`'s array there and leaves the block in place, the current staging
    buffer holds the block at every point (a window not fetched at a point has not moved since it was). -/
theorem held3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4: whatever proof data has `V`'s array there and leaves the block in place, the current staging
    buffer holds the block at every point (a window not fetched at a point has not moved since it was). -/
theorem held4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5: whatever proof data has `V`'s array there and leaves the block in place, the current staging
    buffer holds the block at every point (a window not fetched at a point has not moved since it was). -/
theorem held5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's rectangles: every load and store is of a whole buffer -/

abbrev whole_S2000x512 : Rect S2000x512 := Rect.unit (s := S2000x512) ![0, 0] S2000x512.size inb_S2000x512_S2000x512_0_0
abbrev whole_S2000x1 : Rect S2000x1 := Rect.unit (s := S2000x1) ![0, 0] S2000x1.size inb_S2000x1_S2000x1_0_0
abbrev whole_S512x512 : Rect S512x512 := Rect.unit (s := S512x512) ![0, 0] S512x512.size inb_S512x512_S512x512_0_0
abbrev whole_S512 : Rect S512 := Rect.unit (s := S512) ![0] S512.size inb_S512_S512_0
abbrev whole_S512x128 : Rect S512x128 := Rect.unit (s := S512x128) ![0, 0] S512x128.size inb_S512x128_S512x128_0_0
abbrev whole_S128 : Rect S128 := Rect.unit (s := S128) ![0] S128.size inb_S128_S128_0
abbrev whole_S2000x128 : Rect S2000x128 := Rect.unit (s := S2000x128) ![0, 0] S2000x128.size inb_S2000x128_S2000x128_0_0

/-! ## What the body leaves in the output buffer -/

/-- The node window's buffer after the body: its one store, of the payload of the six loaded blocks (the payload takes the
    counts first and the pooled messages second). -/
def nodeOut (x0 : Vec F S2000x512 .f32) (x1 : Vec F S2000x1 .f32) (x2 : Vec F S512x512 .bf16) (x3 : Vec F S512 .f32) (x4 : Vec F S512x128 .bf16) (x5 : Vec F S128 .f32) : Vec F S2000x128 .f32 :=
  View.canon [⟨whole_S2000x128, k1_pay1 (View.ld x1 whole_S2000x1) (View.ld x0 whole_S2000x512) (View.ld x2 whole_S512x512) (View.ld x3 whole_S512) (View.ld x4 whole_S512x128) (View.ld x5 whole_S128)⟩]

/-- That store covers the buffer. -/
theorem nodeCover (p : Vec F S2000x128 .f32) (y : S2000x128.Idx) :
    ∃ pc ∈ ([⟨whole_S2000x128, p⟩] : List (View.Piece (Elt F) S2000x128 .f32)), y ∈ pc.1.set :=
  View.cover_of_tiled [⟨whole_S2000x128, p⟩] S2000x128.size (by rfl) y

/-! ## The body's triple -/

set_option maxHeartbeats 4000000 in
/-- The body on whole buffers — the inputs' holding `x0 … x5`, the output's anything — returns with the inputs' as they
    were and the output's at its function of the inputs. -/
theorem body_triple (c : Dev nD) (E : Set ℕ) (i : grid1.Coords) (a1 : Memref sig .tc .vmem S2000x512 .f32) (h1 : a1.IsWhole) (a2 : Memref sig .tc .vmem S2000x1 .f32) (h2 : a2.IsWhole) (a3 : Memref sig .tc .vmem S512x512 .bf16) (h3 : a3.IsWhole) (a4 : Memref sig .tc .vmem S512 .f32) (h4 : a4.IsWhole) (a5 : Memref sig .tc .vmem S512x128 .bf16) (h5 : a5.IsWhole) (a6 : Memref sig .tc .vmem S128 .f32) (h6 : a6.IsWhole) (a7 : Memref sig .tc .vmem S2000x128 .f32) (h7 : a7.IsWhole)
    (x0 : Vec F S2000x512 .f32) (x1 : Vec F S2000x1 .f32) (x2 : Vec F S512x512 .bf16) (x3 : Vec F S512 .f32) (x4 : Vec F S512x128 .bf16) (x5 : Vec F S128 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ owns (c : Thread nD τ) a7 fullShare (nodeOut x0 x1 x2 x3 x4 x5)) -∗ K ⟨⟩))
      ⊢ wp frame (wpE (defs₀ (F := F)) Variants.none c none) E (cc1__net2_kernel i a1 h1 a2 h2 a3 h3 a4 h4 a5 h5 a6 h6 a7 h7) K := by
  simp only [cc1__net2_kernel_eq_skeleton]; unfold cc1__net2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (nodeCover _)

/-! ## The pipeline's proof data -/

/-- On core `c`: the arrays as the region finds them; after the body at point `t` each input's buffer still at its
    block and the output's at its function of the six input blocks; no invariant beyond the scoped rest and the generator
    register, which the body does not touch; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => nodeOut (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = nodeOut (blk V c 0 t) (blk V c 1 t) (blk V c 2 t) (blk V c 3 t) (blk V c 4 t) (blk V c 5 t) := by dsimp only [dat]

theorem held0 (c : Dev nD) (t : Fin cfg1.N) (d) : (dat V c).before 0 t d = blk V c 0 t :=
  held0_of V (dat V c) (dat_A V c 0) (after0 V c) t d
theorem held1 (c : Dev nD) (t : Fin cfg1.N) (d) : (dat V c).before 1 t d = blk V c 1 t :=
  held1_of V (dat V c) (dat_A V c 1) (after1 V c) t d
theorem held2 (c : Dev nD) (t : Fin cfg1.N) (d) : (dat V c).before 2 t d = blk V c 2 t :=
  held2_of V (dat V c) (dat_A V c 2) (after2 V c) t d
theorem held3 (c : Dev nD) (t : Fin cfg1.N) (d) : (dat V c).before 3 t d = blk V c 3 t :=
  held3_of V (dat V c) (dat_A V c 3) (after3 V c) t d
theorem held4 (c : Dev nD) (t : Fin cfg1.N) (d) : (dat V c).before 4 t d = blk V c 4 t :=
  held4_of V (dat V c) (dat_A V c 4) (after4 V c) t d
theorem held5 (c : Dev nD) (t : Fin cfg1.N) (d) : (dat V c).before 5 t d = blk V c 5 t :=
  held5_of V (dat V c) (dat_A V c 5) (after5 V c) t d

/-! ## The body obligation -/

/-- What the pipeline calls the body with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it must get back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- At any point the inputs' buffers hold their blocks, so the body's triple applies; the invariant and the core's dues
    pass through untouched. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4, held5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorems' body obligation, at every point. -/
theorem body_obligation (c : Dev nD) : BodyObligation (dat (F := F) V c) (defs₀ (F := F)) Variants.none () Set.univ := fun t => by
  rw [bigSep_W1, bigSep_W1]
  exact body_at V c t

end Cert.Kernel.Net2

end
-- ==== Proof.Bits.Whole.lean ====
/-
  The run of the kernel program as printed from the launch to the return, at any float instance: two stretches of host
  operations and two pallas_calls, in the order host, edge network, host, node network. The contents of a core's buffers are
  followed through the four items: the launch memory; after the first stretch; after the edge network, whose three output
  arrays hold what its 125 write-backs leave and every other buffer is as entered; after the second stretch; after the node
  network, whose output array holds what its 25 write-backs leave. Each pallas_call is handed to the launch theorem as a record:
  its arrays are taken out of the core's unscoped buffers at the entry contents and put back at the exit contents, the
  generator register rides through the pipeline's invariant, nothing is owed, and the kernel has no semaphore of its own.
  The launch theorem then says that every weakly fair execution terminates with every unscoped buffer at the last contents.
  From that: no item writes an argument array, so the arguments end as launched; the new node vectors are what the node
  network's write-backs leave; and the new predicate vectors are what the edge network's write-backs left, which nothing later
  touches.
-/
import proofs.«134044_j3530463117740_2_alg».proof.Proof.Bits.Net1
import proofs.«134044_j3530463117740_2_alg».proof.Proof.Bits.Net2
import proofs.«134044_j3530463117740_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev atLaunch : Dev nD → Valuation τ sig (Elt F) := fun c b => m (c, b)
/-- After the first host stretch: where the edge network is entered. -/
abbrev atNet1 : Dev nD → Valuation τ sig (Elt F) := fun c => StableHlo.after hostOps0 (atLaunch m c)
/-- The same, read at the TensorCore's references. -/
abbrev inNet1 : (c : Dev nD) → (b : Ref sig .tc) → Buf (Elt F) ((c : Thread nD τ).loc b) := fun c b => atNet1 m c b
/-- After the edge network: its arrays at what the pipeline leaves, everything else as entered. -/
def afterNet1 (c : Dev nD) : Valuation τ sig (Elt F) :=
  Pipeline.withArrays spec0 c (atNet1 m c) fun w => (Net1.dat (inNet1 m) c).arrAt w cfg0.N
abbrev outNet1 : (c : Dev nD) → (b : Ref sig .tc) → Buf (Elt F) ((c : Thread nD τ).loc b) := fun c b => afterNet1 m c b
/-- After the second host stretch: where the node network is entered. -/
abbrev atNet2 : Dev nD → Valuation τ sig (Elt F) := fun c => StableHlo.after hostOps1 (afterNet1 m c)
abbrev inNet2 : (c : Dev nD) → (b : Ref sig .tc) → Buf (Elt F) ((c : Thread nD τ).loc b) := fun c b => atNet2 m c b
/-- After the node network: at the return. -/
def atReturn (c : Dev nD) : Valuation τ sig (Elt F) :=
  Pipeline.withArrays spec1 c (atNet2 m c) fun w => (Net2.dat (inNet2 m) c).arrAt w cfg1.N
abbrev outNet2 : (c : Dev nD) → (b : Ref sig .tc) → Buf (Elt F) ((c : Thread nD τ).loc b) := fun c b => atReturn m c b

theorem afterNet1_arr (c : Dev nD) (w : Fin cfg0.W) :
    afterNet1 m c (Proc.devRef .tc (Pipeline.arrRef spec0 w)) = (Net1.dat (inNet1 m) c).arrAt w cfg0.N := by
  unfold afterNet1; exact Pipeline.withArrays_arr spec0 launch0.win.arr_inj c _ _ w
theorem afterNet1_other (c : Dev nD) (b : Ref sig .tc) (hb : ∀ w, Pipeline.arrRef spec0 w ≠ b) :
    afterNet1 m c (Proc.devRef .tc b) = atNet1 m c (Proc.devRef .tc b) := by
  unfold afterNet1; exact Pipeline.withArrays_of_ne spec0 c _ _ b hb
theorem atReturn_arr (c : Dev nD) (w : Fin cfg1.W) :
    atReturn m c (Proc.devRef .tc (Pipeline.arrRef spec1 w)) = (Net2.dat (inNet2 m) c).arrAt w cfg1.N := by
  unfold atReturn; exact Pipeline.withArrays_arr spec1 launch1.win.arr_inj c _ _ w
theorem atReturn_other (c : Dev nD) (b : Ref sig .tc) (hb : ∀ w, Pipeline.arrRef spec1 w ≠ b) :
    atReturn m c (Proc.devRef .tc b) = atNet2 m c (Proc.devRef .tc b) := by
  unfold atReturn; exact Pipeline.withArrays_of_ne spec1 c _ _ b hb

/-- A pallas_call leaves alone every buffer that is not one of its OUTPUT arrays: an input array is never written back,
    and a buffer that is no array of the call is bypassed. -/
theorem afterNet1_keeps (c : Dev nD) (b : Ref sig .tc) (h : ∀ w : Fin cfg0.W, Pipeline.arrRef spec0 w = b → (cfg0.win w).isOut = false) :
    afterNet1 m c (Proc.devRef .tc b) = atNet1 m c (Proc.devRef .tc b) := by
  by_cases hb : ∃ w, Pipeline.arrRef spec0 w = b
  · obtain ⟨w, rfl⟩ := hb
    exact (afterNet1_arr m c w).trans (((Net1.dat (inNet1 m) c).arrAt_in w (h w rfl) _).trans (Net1.dat_A (inNet1 m) c w))
  · exact afterNet1_other m c b fun w e => hb ⟨w, e⟩
theorem atReturn_keeps (c : Dev nD) (b : Ref sig .tc) (h : ∀ w : Fin cfg1.W, Pipeline.arrRef spec1 w = b → (cfg1.win w).isOut = false) :
    atReturn m c (Proc.devRef .tc b) = atNet2 m c (Proc.devRef .tc b) := by
  by_cases hb : ∃ w, Pipeline.arrRef spec1 w = b
  · obtain ⟨w, rfl⟩ := hb
    exact (atReturn_arr m c w).trans (((Net2.dat (inNet2 m) c).arrAt_in w (h w rfl) _).trans (Net2.dat_A (inNet2 m) c w))
  · exact atReturn_other m c b fun w e => hb ⟨w, e⟩

theorem net1_exit (c : Dev nD) (w : Fin cfg0.W) : (Net1.dat (inNet1 m) c).arrAt w cfg0.N = outNet1 m c (Pipeline.arrRef spec0 w) :=
  (afterNet1_arr m c w).symm
theorem net1_rest (c : Dev nD) : ∀ b, b ∉ Finset.univ.image (Pipeline.arrRef spec0) → outNet1 m c b = inNet1 m c b :=
  fun b hb => afterNet1_other m c b fun w e => hb (Finset.mem_image.mpr ⟨w, Finset.mem_univ _, e⟩)
theorem net2_exit (c : Dev nD) (w : Fin cfg1.W) : (Net2.dat (inNet2 m) c).arrAt w cfg1.N = outNet2 m c (Pipeline.arrRef spec1 w) :=
  (atReturn_arr m c w).symm
theorem net2_rest (c : Dev nD) : ∀ b, b ∉ Finset.univ.image (Pipeline.arrRef spec1) → outNet2 m c b = inNet2 m c b :=
  fun b hb => atReturn_other m c b fun w e => hb (Finset.mem_image.mpr ⟨w, Finset.mem_univ _, e⟩)

/-! ## What the return holds -/

/-- A buffer that neither host stretch writes and that is no output array of either pallas_call ends as launched. -/
theorem atReturn_untouched (c : Dev nD) (b : Ref sig .tc)
    (h1 : ∀ w : Fin cfg1.W, Pipeline.arrRef spec1 w = b → (cfg1.win w).isOut = false) (hh1 : b ∉ hostOps1_W)
    (h0 : ∀ w : Fin cfg0.W, Pipeline.arrRef spec0 w = b → (cfg0.win w).isOut = false) (hh0 : b ∉ hostOps0_W) :
    atReturn m c (Proc.devRef .tc b) = m ((c : Thread nD τ).loc b) :=
  (atReturn_keeps m c b h1).trans <| (StableHlo.after_of_writes_sub hostOps1 _ hostOps1_writes hh1).trans <|
    (afterNet1_keeps m c b h0).trans <| (StableHlo.after_of_writes_sub hostOps0 _ hostOps0_writes hh0).trans rfl

theorem atReturn_arg0 (c : Dev nD) : atReturn m c (Proc.devRef .tc main_arg0) = m ((c : Thread nD τ).loc main_arg0) :=
  atReturn_untouched m c main_arg0 (by decide) (by decide) (by decide) (by decide)
theorem atReturn_arg1 (c : Dev nD) : atReturn m c (Proc.devRef .tc main_arg1) = m ((c : Thread nD τ).loc main_arg1) :=
  atReturn_untouched m c main_arg1 (by decide) (by decide) (by decide) (by decide)
theorem atReturn_arg2 (c : Dev nD) : atReturn m c (Proc.devRef .tc main_arg2) = m ((c : Thread nD τ).loc main_arg2) :=
  atReturn_untouched m c main_arg2 (by decide) (by decide) (by decide) (by decide)
theorem atReturn_arg3 (c : Dev nD) : atReturn m c (Proc.devRef .tc main_arg3) = m ((c : Thread nD τ).loc main_arg3) :=
  atReturn_untouched m c main_arg3 (by decide) (by decide) (by decide) (by decide)
theorem atReturn_arg4 (c : Dev nD) : atReturn m c (Proc.devRef .tc main_arg4) = m ((c : Thread nD τ).loc main_arg4) :=
  atReturn_untouched m c main_arg4 (by decide) (by decide) (by decide) (by decide)
theorem atReturn_arg5 (c : Dev nD) : atReturn m c (Proc.devRef .tc main_arg5) = m ((c : Thread nD τ).loc main_arg5) :=
  atReturn_untouched m c main_arg5 (by decide) (by decide) (by decide) (by decide)
theorem atReturn_arg6 (c : Dev nD) : atReturn m c (Proc.devRef .tc main_arg6) = m ((c : Thread nD τ).loc main_arg6) :=
  atReturn_untouched m c main_arg6 (by decide) (by decide) (by decide) (by decide)
theorem atReturn_arg7 (c : Dev nD) : atReturn m c (Proc.devRef .tc main_arg7) = m ((c : Thread nD τ).loc main_arg7) :=
  atReturn_untouched m c main_arg7 (by decide) (by decide) (by decide) (by decide)
theorem atReturn_arg8 (c : Dev nD) : atReturn m c (Proc.devRef .tc main_arg8) = m ((c : Thread nD τ).loc main_arg8) :=
  atReturn_untouched m c main_arg8 (by decide) (by decide) (by decide) (by decide)
theorem atReturn_arg9 (c : Dev nD) : atReturn m c (Proc.devRef .tc main_arg9) = m ((c : Thread nD τ).loc main_arg9) :=
  atReturn_untouched m c main_arg9 (by decide) (by decide) (by decide) (by decide)
theorem atReturn_arg10 (c : Dev nD) : atReturn m c (Proc.devRef .tc main_arg10) = m ((c : Thread nD τ).loc main_arg10) :=
  atReturn_untouched m c main_arg10 (by decide) (by decide) (by decide) (by decide)

/-- The new node vectors: what the node network's write-backs leave in its output array. -/
theorem atReturn_nodes (c : Dev nD) : atReturn m c (Proc.devRef .tc main_v54) = (Net2.dat (inNet2 m) c).arrAt 6 cfg1.N :=
  atReturn_arr m c 6
/-- The new predicate vectors: what the edge network's write-backs left in its second output array, untouched since. -/
theorem atReturn_preds (c : Dev nD) : atReturn m c (Proc.devRef .tc main_v23_1) = (Net1.dat (inNet1 m) c).arrAt 6 cfg0.N :=
  (atReturn_keeps m c main_v23_1 (by decide)).trans <| (StableHlo.after_of_writes_sub hostOps1 _ hostOps1_writes (by decide)).trans <|
    afterNet1_arr m c 6

/-! ## The proof data family and the thread state -/

abbrev noTables : (p : Fin 2) → (pcfgs (F := F) p).Adm := fun p => (cfgs p).toPCfg_adm
/-- Each pipeline's proof data at its own entry contents. -/
def pdats : (p : Fin 2) → (c : Dev nD) → Dat τ (Elt F) Unit ℕ (UR sig nD τ) ℕ (Pipeline.pin (pcfgs (F := F)) noTables p) c
  | ⟨0, _⟩ => fun c => Net1.dat (inNet1 m) c
  | ⟨1, _⟩ => fun c => Net2.dat (inNet2 m) c
abbrev 𝒱₀ : Variants := Variants.none
abbrev L : GSem nD τ sig → Finset Unit := fun _ => ∅
abbrev lv : GSem nD τ sig → Unit → ℕ := fun _ _ => 0
/-- Beside the buffers every item carries the generator register at some state and the core owing nothing. -/
abbrev side (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents, the register at some state. -/
abbrev lastState (c : Dev nD) : sProp 𝕄 := iprop(StableHlo.held (c : Thread nD τ) (Pipeline.ucRefs τ sig) (atReturn m c) ∗ ∃ r, prngReg c r)

/-! ## The two pallas_calls as items -/

set_option backward.isDefEq.respectTransparency.types false in
/-- The edge network: entered with every unscoped buffer at `atNet1`, left with them at `afterNet1`. -/
def net1Item : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (Net1.body_obligation (inNet1 m) c).loose
  hwaits := Pipeline.hwaits_of_owed_zero _ _ _ _ L lv 0 fun _ _ => rfl
  pre c := iprop(StableHlo.held (c : Thread nD τ) (Pipeline.ucRefs τ sig) (atNet1 m c) ∗ side c)
  post c := iprop(StableHlo.held (c : Thread nD τ) (Pipeline.ucRefs τ sig) (afterNet1 m c) ∗ side c)
  X c := iprop(∃ r, prngReg c r)
  Y c := iprop(∃ r, prngReg c r)
  Z c := Pipeline.unscopedRest (Ix := Unit) (Name := ℕ) (U := UR sig nD τ) (Lvl := ℕ) spec0 c (inNet1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (inNet1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (inNet1 m c) (outNet1 m c) ((pdats m 0 c).arrAt · cfg0.N) (net1_exit m c) (net1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node network: entered with every unscoped buffer at `atNet2`, left with them at `atReturn`. -/
def net2Item : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (Net2.body_obligation (inNet2 m) c).loose
  hwaits := Pipeline.hwaits_of_owed_zero _ _ _ _ L lv 1 fun _ _ => rfl
  pre c := iprop(StableHlo.held (c : Thread nD τ) (Pipeline.ucRefs τ sig) (atNet2 m c) ∗ side c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inNet2 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (inNet2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (inNet2 m c) (outNet2 m c) ((pdats m 1 c).arrAt · cfg1.N) (net2_exit m c) (net2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's four items in order. -/
abbrev items : List (Pipeline.Seg (pcfgs (F := F)) noTables (pdats m) () defs₀ 𝒱₀ L lv) :=
  [ .host (hostItem hostOps0 hostOps0_sub hostOps0_fresh (atLaunch m)),
    .region (net1Item m),
    .host (hostItem hostOps1 hostOps1_sub hostOps1_fresh (afterNet1 m)),
    .region (net2Item m) ]

set_option backward.isDefEq.respectTransparency.types false in
/-- Every weakly fair execution from memory `m` with zero counters terminates, nothing faulting, with every unscoped
    buffer of every core at the return's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atReturn m c b) :=
  Pipeline.θ_run_regions_kit (pcfgs (F := F)) noTables (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ side c)) (Tₙ := lastState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atReturn m c b)
    (hfin := fun c s' => by
      iintro ⟨⟨Hh, -⟩, HSI⟩
      unfold StableHlo.held
      imodintro
      iapply (pointsTo_read_all (Pipeline.ucRefs τ sig) (fun b => (((c : Thread nD τ)).1, b)) (atReturn m c) s')
      isplitl [Hh] <;> iassumption)
    (hQ := fun s h c => h c)

/-- The same run with what the claims speak of: the two results named, and every argument array as launched. -/
theorem run_results : θ_run defs (onTc (τ := τ) (main (F := F))) ⟨m, fun _ => 0, ρ⟩ (fun r => ∀ c : Dev nD,
      r.2.mem ((c.tc : Thread nD τ).loc main_v54) = (Net2.dat (inNet2 m) c).arrAt 6 cfg1.N
      ∧ r.2.mem ((c.tc : Thread nD τ).loc main_v23_1) = (Net1.dat (inNet1 m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (unscoped_mem main_v54 (by decide))).trans (atReturn_nodes m c),
     (h c _ (unscoped_mem main_v23_1 (by decide))).trans (atReturn_preds m c),
     (h c _ (unscoped_mem main_arg0 (by decide))).trans (atReturn_arg0 m c),
     (h c _ (unscoped_mem main_arg1 (by decide))).trans (atReturn_arg1 m c),
     (h c _ (unscoped_mem main_arg2 (by decide))).trans (atReturn_arg2 m c),
     (h c _ (unscoped_mem main_arg3 (by decide))).trans (atReturn_arg3 m c),
     (h c _ (unscoped_mem main_arg4 (by decide))).trans (atReturn_arg4 m c),
     (h c _ (unscoped_mem main_arg5 (by decide))).trans (atReturn_arg5 m c),
     (h c _ (unscoped_mem main_arg6 (by decide))).trans (atReturn_arg6 m c),
     (h c _ (unscoped_mem main_arg7 (by decide))).trans (atReturn_arg7 m c),
     (h c _ (unscoped_mem main_arg8 (by decide))).trans (atReturn_arg8 m c),
     (h c _ (unscoped_mem main_arg9 (by decide))).trans (atReturn_arg9 m c),
     (h c _ (unscoped_mem main_arg10 (by decide))).trans (atReturn_arg10 m c)⟩) (run_all m ρ)

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_results m ρ)

end Cert.Kernel.Whole

end
-- ==== Proof.Ideal.Net1.lean ====
/-
  The first pallas_call (the edge network) of the idealized kernel program, as a pipeline the launch theorems can run,
  at any float instance. Its grid has 125 points; point t works on edge rows 1600·t … 1600·t + 1599. Five windows are read
  (the 1600 × 384 block of joined edge features, and the two weight matrices and two bias vectors whole, fetched once and
  kept), three are written (the 1600 × 512 subject messages, the 1600 × 128 new predicate vectors, the 1600 × 512 object
  messages), each by ONE store of the whole block. So what the body leaves in an output window's buffer is one pure
  function of the five input blocks; the body's triple is run symbolically once, on arbitrary whole buffers; and at every
  point each input buffer holds its window's block of the array as the region found it, whether the pipeline fetched it
  there or kept it from the first point. The contents `V` of the core's buffers at the region's entry are a parameter.
-/
import proofs.«134044_j3530463117740_2_alg».proof.Proof.Gen.KernelIdeal.Launch
import proofs.«134044_j3530463117740_2_alg».proof.Proof.Gen.KernelIdeal.Skeleton
import proofs.«134044_j3530463117740_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle of its array, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has `V`'s array there and leaves the block in place, the current staging
    buffer holds the block at every point (a window not fetched at a point has not moved since it was). -/
theorem held0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1: whatever proof data has `V`'s array there and leaves the block in place, the current staging
    buffer holds the block at every point (a window not fetched at a point has not moved since it was). -/
theorem held1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2: whatever proof data has `V`'s array there and leaves the block in place, the current staging
    buffer holds the block at every point (a window not fetched at a point has not moved since it was). -/
theorem held2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3: whatever proof data has `V`'s array there and leaves the block in place, the current staging
    buffer holds the block at every point (a window not fetched at a point has not moved since it was). -/
theorem held3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4: whatever proof data has `V`'s array there and leaves the block in place, the current staging
    buffer holds the block at every point (a window not fetched at a point has not moved since it was). -/
theorem held4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's rectangles: every load and store is of a whole buffer -/

abbrev whole_S1600x384 : Rect S1600x384 := Rect.unit (s := S1600x384) ![0, 0] S1600x384.size inb_S1600x384_S1600x384_0_0
abbrev whole_S384x512 : Rect S384x512 := Rect.unit (s := S384x512) ![0, 0] S384x512.size inb_S384x512_S384x512_0_0
abbrev whole_S512 : Rect S512 := Rect.unit (s := S512) ![0] S512.size inb_S512_S512_0
abbrev whole_S512x1152 : Rect S512x1152 := Rect.unit (s := S512x1152) ![0, 0] S512x1152.size inb_S512x1152_S512x1152_0_0
abbrev whole_S1152 : Rect S1152 := Rect.unit (s := S1152) ![0] S1152.size inb_S1152_S1152_0
abbrev whole_S1600x512 : Rect S1600x512 := Rect.unit (s := S1600x512) ![0, 0] S1600x512.size inb_S1600x512_S1600x512_0_0
abbrev whole_S1600x128 : Rect S1600x128 := Rect.unit (s := S1600x128) ![0, 0] S1600x128.size inb_S1600x128_S1600x128_0_0

/-! ## What the body leaves in the output buffers -/

/-- The subj window's buffer after the body: its one store, of the payload of the five loaded blocks. -/
def subjOut (x0 : Vec F S1600x384 .bf16) (x1 : Vec F S384x512 .bf16) (x2 : Vec F S512 .f32) (x3 : Vec F S512x1152 .bf16) (x4 : Vec F S1152 .f32) : Vec F S1600x512 .bf16 :=
  View.canon [⟨whole_S1600x512, k0_pay2 (View.ld x0 whole_S1600x384) (View.ld x1 whole_S384x512) (View.ld x2 whole_S512) (View.ld x3 whole_S512x1152) (View.ld x4 whole_S1152)⟩]

/-- That store covers the buffer. -/
theorem subjCover (p : Vec F S1600x512 .bf16) (y : S1600x512.Idx) :
    ∃ pc ∈ ([⟨whole_S1600x512, p⟩] : List (View.Piece (Elt F) S1600x512 .bf16)), y ∈ pc.1.set :=
  View.cover_of_tiled [⟨whole_S1600x512, p⟩] S1600x512.size (by rfl) y

/-- The pred window's buffer after the body: its one store, of the payload of the five loaded blocks. -/
def predOut (x0 : Vec F S1600x384 .bf16) (x1 : Vec F S384x512 .bf16) (x2 : Vec F S512 .f32) (x3 : Vec F S512x1152 .bf16) (x4 : Vec F S1152 .f32) : Vec F S1600x128 .f32 :=
  View.canon [⟨whole_S1600x128, k0_pay3 (View.ld x0 whole_S1600x384) (View.ld x1 whole_S384x512) (View.ld x2 whole_S512) (View.ld x3 whole_S512x1152) (View.ld x4 whole_S1152)⟩]

/-- That store covers the buffer. -/
theorem predCover (p : Vec F S1600x128 .f32) (y : S1600x128.Idx) :
    ∃ pc ∈ ([⟨whole_S1600x128, p⟩] : List (View.Piece (Elt F) S1600x128 .f32)), y ∈ pc.1.set :=
  View.cover_of_tiled [⟨whole_S1600x128, p⟩] S1600x128.size (by rfl) y

/-- The obj window's buffer after the body: its one store, of the payload of the five loaded blocks. -/
def objOut (x0 : Vec F S1600x384 .bf16) (x1 : Vec F S384x512 .bf16) (x2 : Vec F S512 .f32) (x3 : Vec F S512x1152 .bf16) (x4 : Vec F S1152 .f32) : Vec F S1600x512 .bf16 :=
  View.canon [⟨whole_S1600x512, k0_pay4 (View.ld x0 whole_S1600x384) (View.ld x1 whole_S384x512) (View.ld x2 whole_S512) (View.ld x3 whole_S512x1152) (View.ld x4 whole_S1152)⟩]

/-- That store covers the buffer. -/
theorem objCover (p : Vec F S1600x512 .bf16) (y : S1600x512.Idx) :
    ∃ pc ∈ ([⟨whole_S1600x512, p⟩] : List (View.Piece (Elt F) S1600x512 .bf16)), y ∈ pc.1.set :=
  View.cover_of_tiled [⟨whole_S1600x512, p⟩] S1600x512.size (by rfl) y

/-! ## The body's triple -/

set_option maxHeartbeats 4000000 in
/-- The body on whole buffers — the inputs' holding `x0 … x4`, the outputs' anything — returns with the inputs' as they
    were and each output's at its function of the inputs. -/
theorem body_triple (c : Dev nD) (E : Set ℕ) (i : grid0.Coords) (a1 : Memref sig .tc .vmem S1600x384 .bf16) (h1 : a1.IsWhole) (a2 : Memref sig .tc .vmem S384x512 .bf16) (h2 : a2.IsWhole) (a3 : Memref sig .tc .vmem S512 .f32) (h3 : a3.IsWhole) (a4 : Memref sig .tc .vmem S512x1152 .bf16) (h4 : a4.IsWhole) (a5 : Memref sig .tc .vmem S1152 .f32) (h5 : a5.IsWhole) (a6 : Memref sig .tc .vmem S1600x512 .bf16) (h6 : a6.IsWhole) (a7 : Memref sig .tc .vmem S1600x128 .f32) (h7 : a7.IsWhole) (a8 : Memref sig .tc .vmem S1600x512 .bf16) (h8 : a8.IsWhole)
    (x0 : Vec F S1600x384 .bf16) (x1 : Vec F S384x512 .bf16) (x2 : Vec F S512 .f32) (x3 : Vec F S512x1152 .bf16) (x4 : Vec F S1152 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
            ∗ owns (c : Thread nD τ) a6 fullShare (subjOut x0 x1 x2 x3 x4) ∗ owns (c : Thread nD τ) a7 fullShare (predOut x0 x1 x2 x3 x4) ∗ owns (c : Thread nD τ) a8 fullShare (objOut x0 x1 x2 x3 x4)) -∗ K ⟨⟩))
      ⊢ wp frame (wpE (defs₀ (F := F)) Variants.none c none) E (cc0__net1_kernel i a1 h1 a2 h2 a3 h3 a4 h4 a5 h5 a6 h6 a7 h7 a8 h8) K := by
  simp only [cc0__net1_kernel_eq_skeleton]; unfold cc0__net1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (subjCover _)
  isplitl [H6]
  · iexists _; isplitr
    swap; · iexact H6
    ipureintro
    exact View.read_writes_eq_canon _ _ _ (predCover _)
  iexists _; isplitr
  swap; · iexact H7
  ipureintro
  exact View.read_writes_eq_canon _ _ _ (objCover _)

/-! ## The pipeline's proof data -/

/-- On core `c`: the arrays as the region finds them; after the body at point `t` each input's buffer still at its
    block and each output's at its function of the five input blocks; no invariant beyond the scoped rest and the generator
    register, which the body does not touch; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => subjOut (blk V c 0 t) (blk V c 1 t) (blk V c 2 t) (blk V c 3 t) (blk V c 4 t)
    | ⟨6, _⟩ => predOut (blk V c 0 t) (blk V c 1 t) (blk V c 2 t) (blk V c 3 t) (blk V c 4 t)
    | ⟨7, _⟩ => objOut (blk V c 0 t) (blk V c 1 t) (blk V c 2 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = subjOut (blk V c 0 t) (blk V c 1 t) (blk V c 2 t) (blk V c 3 t) (blk V c 4 t) := by dsimp only [dat]
theorem after6 (c : Dev nD) (t : Fin cfg0.N) : (dat V c).after 6 t = predOut (blk V c 0 t) (blk V c 1 t) (blk V c 2 t) (blk V c 3 t) (blk V c 4 t) := by dsimp only [dat]
theorem after7 (c : Dev nD) (t : Fin cfg0.N) : (dat V c).after 7 t = objOut (blk V c 0 t) (blk V c 1 t) (blk V c 2 t) (blk V c 3 t) (blk V c 4 t) := by dsimp only [dat]

theorem held0 (c : Dev nD) (t : Fin cfg0.N) (d) : (dat V c).before 0 t d = blk V c 0 t :=
  held0_of V (dat V c) (dat_A V c 0) (after0 V c) t d
theorem held1 (c : Dev nD) (t : Fin cfg0.N) (d) : (dat V c).before 1 t d = blk V c 1 t :=
  held1_of V (dat V c) (dat_A V c 1) (after1 V c) t d
theorem held2 (c : Dev nD) (t : Fin cfg0.N) (d) : (dat V c).before 2 t d = blk V c 2 t :=
  held2_of V (dat V c) (dat_A V c 2) (after2 V c) t d
theorem held3 (c : Dev nD) (t : Fin cfg0.N) (d) : (dat V c).before 3 t d = blk V c 3 t :=
  held3_of V (dat V c) (dat_A V c 3) (after3 V c) t d
theorem held4 (c : Dev nD) (t : Fin cfg0.N) (d) : (dat V c).before 4 t d = blk V c 4 t :=
  held4_of V (dat V c) (dat_A V c 4) (after4 V c) t d

/-! ## The body obligation -/

/-- What the pipeline calls the body with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it must get back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- At any point the inputs' buffers hold their blocks, so the body's triple applies; the invariant and the core's dues
    pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorems' body obligation, at every point. -/
theorem body_obligation (c : Dev nD) : BodyObligation (dat (F := F) V c) (defs₀ (F := F)) Variants.none () Set.univ := fun t => by
  rw [bigSep_W0, bigSep_W0]
  exact body_at V c t

end Cert.KernelIdeal.Net1

end
-- ==== Proof.Ideal.Net2.lean ====
/-
  The second pallas_call (the node network) of the idealized kernel program, as a pipeline the launch theorems can run,
  at any float instance. Its grid has 25 points; point t works on node rows 2000·t … 2000·t + 1999. Six windows are read (the
  2000 × 512 block of pooled messages, the 2000 × 1 block of incidence counts, and the two weight matrices and two bias
  vectors whole, fetched once and kept), one is written (the 2000 × 128 new node vectors) by ONE store of the whole block.
  So what the body leaves in the output window's buffer is one pure function of the six input blocks; the body's triple is
  run symbolically once, on arbitrary whole buffers; and at every point each input buffer holds its window's block of the
  array as the region found it. The contents `V` of the core's buffers at the region's entry are a parameter.
-/
import proofs.«134044_j3530463117740_2_alg».proof.Proof.Gen.KernelIdeal.Launch
import proofs.«134044_j3530463117740_2_alg».proof.Proof.Gen.KernelIdeal.Skeleton
import proofs.«134044_j3530463117740_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle of its array, read off the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has `V`'s array there and leaves the block in place, the current staging
    buffer holds the block at every point (a window not fetched at a point has not moved since it was). -/
theorem held0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1: whatever proof data has `V`'s array there and leaves the block in place, the current staging
    buffer holds the block at every point (a window not fetched at a point has not moved since it was). -/
theorem held1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2: whatever proof data has `V`'s array there and leaves the block in place, the current staging
    buffer holds the block at every point (a window not fetched at a point has not moved since it was). -/
theorem held2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3: whatever proof data has `V`'s array there and leaves the block in place, the current staging
    buffer holds the block at every point (a window not fetched at a point has not moved since it was). -/
theorem held3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4: whatever proof data has `V`'s array there and leaves the block in place, the current staging
    buffer holds the block at every point (a window not fetched at a point has not moved since it was). -/
theorem held4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5: whatever proof data has `V`'s array there and leaves the block in place, the current staging
    buffer holds the block at every point (a window not fetched at a point has not moved since it was). -/
theorem held5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's rectangles: every load and store is of a whole buffer -/

abbrev whole_S2000x512 : Rect S2000x512 := Rect.unit (s := S2000x512) ![0, 0] S2000x512.size inb_S2000x512_S2000x512_0_0
abbrev whole_S2000x1 : Rect S2000x1 := Rect.unit (s := S2000x1) ![0, 0] S2000x1.size inb_S2000x1_S2000x1_0_0
abbrev whole_S512x512 : Rect S512x512 := Rect.unit (s := S512x512) ![0, 0] S512x512.size inb_S512x512_S512x512_0_0
abbrev whole_S512 : Rect S512 := Rect.unit (s := S512) ![0] S512.size inb_S512_S512_0
abbrev whole_S512x128 : Rect S512x128 := Rect.unit (s := S512x128) ![0, 0] S512x128.size inb_S512x128_S512x128_0_0
abbrev whole_S128 : Rect S128 := Rect.unit (s := S128) ![0] S128.size inb_S128_S128_0
abbrev whole_S2000x128 : Rect S2000x128 := Rect.unit (s := S2000x128) ![0, 0] S2000x128.size inb_S2000x128_S2000x128_0_0

/-! ## What the body leaves in the output buffer -/

/-- The node window's buffer after the body: its one store, of the payload of the six loaded blocks (the payload takes the
    counts first and the pooled messages second). -/
def nodeOut (x0 : Vec F S2000x512 .f32) (x1 : Vec F S2000x1 .f32) (x2 : Vec F S512x512 .bf16) (x3 : Vec F S512 .f32) (x4 : Vec F S512x128 .bf16) (x5 : Vec F S128 .f32) : Vec F S2000x128 .f32 :=
  View.canon [⟨whole_S2000x128, k1_pay1 (View.ld x1 whole_S2000x1) (View.ld x0 whole_S2000x512) (View.ld x2 whole_S512x512) (View.ld x3 whole_S512) (View.ld x4 whole_S512x128) (View.ld x5 whole_S128)⟩]

/-- That store covers the buffer. -/
theorem nodeCover (p : Vec F S2000x128 .f32) (y : S2000x128.Idx) :
    ∃ pc ∈ ([⟨whole_S2000x128, p⟩] : List (View.Piece (Elt F) S2000x128 .f32)), y ∈ pc.1.set :=
  View.cover_of_tiled [⟨whole_S2000x128, p⟩] S2000x128.size (by rfl) y

/-! ## The body's triple -/

set_option maxHeartbeats 4000000 in
/-- The body on whole buffers — the inputs' holding `x0 … x5`, the output's anything — returns with the inputs' as they
    were and the output's at its function of the inputs. -/
theorem body_triple (c : Dev nD) (E : Set ℕ) (i : grid1.Coords) (a1 : Memref sig .tc .vmem S2000x512 .f32) (h1 : a1.IsWhole) (a2 : Memref sig .tc .vmem S2000x1 .f32) (h2 : a2.IsWhole) (a3 : Memref sig .tc .vmem S512x512 .bf16) (h3 : a3.IsWhole) (a4 : Memref sig .tc .vmem S512 .f32) (h4 : a4.IsWhole) (a5 : Memref sig .tc .vmem S512x128 .bf16) (h5 : a5.IsWhole) (a6 : Memref sig .tc .vmem S128 .f32) (h6 : a6.IsWhole) (a7 : Memref sig .tc .vmem S2000x128 .f32) (h7 : a7.IsWhole)
    (x0 : Vec F S2000x512 .f32) (x1 : Vec F S2000x1 .f32) (x2 : Vec F S512x512 .bf16) (x3 : Vec F S512 .f32) (x4 : Vec F S512x128 .bf16) (x5 : Vec F S128 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ owns (c : Thread nD τ) a7 fullShare (nodeOut x0 x1 x2 x3 x4 x5)) -∗ K ⟨⟩))
      ⊢ wp frame (wpE (defs₀ (F := F)) Variants.none c none) E (cc1__net2_kernel i a1 h1 a2 h2 a3 h3 a4 h4 a5 h5 a6 h6 a7 h7) K := by
  simp only [cc1__net2_kernel_eq_skeleton]; unfold cc1__net2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (nodeCover _)

/-! ## The pipeline's proof data -/

/-- On core `c`: the arrays as the region finds them; after the body at point `t` each input's buffer still at its
    block and the output's at its function of the six input blocks; no invariant beyond the scoped rest and the generator
    register, which the body does not touch; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => nodeOut (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = nodeOut (blk V c 0 t) (blk V c 1 t) (blk V c 2 t) (blk V c 3 t) (blk V c 4 t) (blk V c 5 t) := by dsimp only [dat]

theorem held0 (c : Dev nD) (t : Fin cfg1.N) (d) : (dat V c).before 0 t d = blk V c 0 t :=
  held0_of V (dat V c) (dat_A V c 0) (after0 V c) t d
theorem held1 (c : Dev nD) (t : Fin cfg1.N) (d) : (dat V c).before 1 t d = blk V c 1 t :=
  held1_of V (dat V c) (dat_A V c 1) (after1 V c) t d
theorem held2 (c : Dev nD) (t : Fin cfg1.N) (d) : (dat V c).before 2 t d = blk V c 2 t :=
  held2_of V (dat V c) (dat_A V c 2) (after2 V c) t d
theorem held3 (c : Dev nD) (t : Fin cfg1.N) (d) : (dat V c).before 3 t d = blk V c 3 t :=
  held3_of V (dat V c) (dat_A V c 3) (after3 V c) t d
theorem held4 (c : Dev nD) (t : Fin cfg1.N) (d) : (dat V c).before 4 t d = blk V c 4 t :=
  held4_of V (dat V c) (dat_A V c 4) (after4 V c) t d
theorem held5 (c : Dev nD) (t : Fin cfg1.N) (d) : (dat V c).before 5 t d = blk V c 5 t :=
  held5_of V (dat V c) (dat_A V c 5) (after5 V c) t d

/-! ## The body obligation -/

/-- What the pipeline calls the body with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it must get back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- At any point the inputs' buffers hold their blocks, so the body's triple applies; the invariant and the core's dues
    pass through untouched. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4, held5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorems' body obligation, at every point. -/
theorem body_obligation (c : Dev nD) : BodyObligation (dat (F := F) V c) (defs₀ (F := F)) Variants.none () Set.univ := fun t => by
  rw [bigSep_W1, bigSep_W1]
  exact body_at V c t

end Cert.KernelIdeal.Net2

end
-- ==== Proof.Ideal.Whole.lean ====
/-
  The run of the idealized kernel program from the launch to the return, at any float instance: two stretches of host
  operations and two pallas_calls, in the order host, edge network, host, node network. The contents of a core's buffers are
  followed through the four items: the launch memory; after the first stretch; after the edge network, whose three output
  arrays hold what its 125 write-backs leave and every other buffer is as entered; after the second stretch; after the node
  network, whose output array holds what its 25 write-backs leave. Each pallas_call is handed to the launch theorem as a record:
  its arrays are taken out of the core's unscoped buffers at the entry contents and put back at the exit contents, the
  generator register rides through the pipeline's invariant, nothing is owed, and the kernel has no semaphore of its own.
  The launch theorem then says that every weakly fair execution terminates with every unscoped buffer at the last contents.
  From that: no item writes an argument array, so the arguments end as launched; the new node vectors are what the node
  network's write-backs leave; and the new predicate vectors are what the edge network's write-backs left, which nothing later
  touches.
-/
import proofs.«134044_j3530463117740_2_alg».proof.Proof.Ideal.Net1
import proofs.«134044_j3530463117740_2_alg».proof.Proof.Ideal.Net2
import proofs.«134044_j3530463117740_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev atLaunch : Dev nD → Valuation τ sig (Elt F) := fun c b => m (c, b)
/-- After the first host stretch: where the edge network is entered. -/
abbrev atNet1 : Dev nD → Valuation τ sig (Elt F) := fun c => StableHlo.after hostOps0 (atLaunch m c)
/-- The same, read at the TensorCore's references. -/
abbrev inNet1 : (c : Dev nD) → (b : Ref sig .tc) → Buf (Elt F) ((c : Thread nD τ).loc b) := fun c b => atNet1 m c b
/-- After the edge network: its arrays at what the pipeline leaves, everything else as entered. -/
def afterNet1 (c : Dev nD) : Valuation τ sig (Elt F) :=
  Pipeline.withArrays spec0 c (atNet1 m c) fun w => (Net1.dat (inNet1 m) c).arrAt w cfg0.N
abbrev outNet1 : (c : Dev nD) → (b : Ref sig .tc) → Buf (Elt F) ((c : Thread nD τ).loc b) := fun c b => afterNet1 m c b
/-- After the second host stretch: where the node network is entered. -/
abbrev atNet2 : Dev nD → Valuation τ sig (Elt F) := fun c => StableHlo.after hostOps1 (afterNet1 m c)
abbrev inNet2 : (c : Dev nD) → (b : Ref sig .tc) → Buf (Elt F) ((c : Thread nD τ).loc b) := fun c b => atNet2 m c b
/-- After the node network: at the return. -/
def atReturn (c : Dev nD) : Valuation τ sig (Elt F) :=
  Pipeline.withArrays spec1 c (atNet2 m c) fun w => (Net2.dat (inNet2 m) c).arrAt w cfg1.N
abbrev outNet2 : (c : Dev nD) → (b : Ref sig .tc) → Buf (Elt F) ((c : Thread nD τ).loc b) := fun c b => atReturn m c b

theorem afterNet1_arr (c : Dev nD) (w : Fin cfg0.W) :
    afterNet1 m c (Proc.devRef .tc (Pipeline.arrRef spec0 w)) = (Net1.dat (inNet1 m) c).arrAt w cfg0.N := by
  unfold afterNet1; exact Pipeline.withArrays_arr spec0 launch0.win.arr_inj c _ _ w
theorem afterNet1_other (c : Dev nD) (b : Ref sig .tc) (hb : ∀ w, Pipeline.arrRef spec0 w ≠ b) :
    afterNet1 m c (Proc.devRef .tc b) = atNet1 m c (Proc.devRef .tc b) := by
  unfold afterNet1; exact Pipeline.withArrays_of_ne spec0 c _ _ b hb
theorem atReturn_arr (c : Dev nD) (w : Fin cfg1.W) :
    atReturn m c (Proc.devRef .tc (Pipeline.arrRef spec1 w)) = (Net2.dat (inNet2 m) c).arrAt w cfg1.N := by
  unfold atReturn; exact Pipeline.withArrays_arr spec1 launch1.win.arr_inj c _ _ w
theorem atReturn_other (c : Dev nD) (b : Ref sig .tc) (hb : ∀ w, Pipeline.arrRef spec1 w ≠ b) :
    atReturn m c (Proc.devRef .tc b) = atNet2 m c (Proc.devRef .tc b) := by
  unfold atReturn; exact Pipeline.withArrays_of_ne spec1 c _ _ b hb

/-- A pallas_call leaves alone every buffer that is not one of its OUTPUT arrays: an input array is never written back,
    and a buffer that is no array of the call is bypassed. -/
theorem afterNet1_keeps (c : Dev nD) (b : Ref sig .tc) (h : ∀ w : Fin cfg0.W, Pipeline.arrRef spec0 w = b → (cfg0.win w).isOut = false) :
    afterNet1 m c (Proc.devRef .tc b) = atNet1 m c (Proc.devRef .tc b) := by
  by_cases hb : ∃ w, Pipeline.arrRef spec0 w = b
  · obtain ⟨w, rfl⟩ := hb
    exact (afterNet1_arr m c w).trans (((Net1.dat (inNet1 m) c).arrAt_in w (h w rfl) _).trans (Net1.dat_A (inNet1 m) c w))
  · exact afterNet1_other m c b fun w e => hb ⟨w, e⟩
theorem atReturn_keeps (c : Dev nD) (b : Ref sig .tc) (h : ∀ w : Fin cfg1.W, Pipeline.arrRef spec1 w = b → (cfg1.win w).isOut = false) :
    atReturn m c (Proc.devRef .tc b) = atNet2 m c (Proc.devRef .tc b) := by
  by_cases hb : ∃ w, Pipeline.arrRef spec1 w = b
  · obtain ⟨w, rfl⟩ := hb
    exact (atReturn_arr m c w).trans (((Net2.dat (inNet2 m) c).arrAt_in w (h w rfl) _).trans (Net2.dat_A (inNet2 m) c w))
  · exact atReturn_other m c b fun w e => hb ⟨w, e⟩

theorem net1_exit (c : Dev nD) (w : Fin cfg0.W) : (Net1.dat (inNet1 m) c).arrAt w cfg0.N = outNet1 m c (Pipeline.arrRef spec0 w) :=
  (afterNet1_arr m c w).symm
theorem net1_rest (c : Dev nD) : ∀ b, b ∉ Finset.univ.image (Pipeline.arrRef spec0) → outNet1 m c b = inNet1 m c b :=
  fun b hb => afterNet1_other m c b fun w e => hb (Finset.mem_image.mpr ⟨w, Finset.mem_univ _, e⟩)
theorem net2_exit (c : Dev nD) (w : Fin cfg1.W) : (Net2.dat (inNet2 m) c).arrAt w cfg1.N = outNet2 m c (Pipeline.arrRef spec1 w) :=
  (atReturn_arr m c w).symm
theorem net2_rest (c : Dev nD) : ∀ b, b ∉ Finset.univ.image (Pipeline.arrRef spec1) → outNet2 m c b = inNet2 m c b :=
  fun b hb => atReturn_other m c b fun w e => hb (Finset.mem_image.mpr ⟨w, Finset.mem_univ _, e⟩)

/-! ## What the return holds -/

/-- A buffer that neither host stretch writes and that is no output array of either pallas_call ends as launched. -/
theorem atReturn_untouched (c : Dev nD) (b : Ref sig .tc)
    (h1 : ∀ w : Fin cfg1.W, Pipeline.arrRef spec1 w = b → (cfg1.win w).isOut = false) (hh1 : b ∉ hostOps1_W)
    (h0 : ∀ w : Fin cfg0.W, Pipeline.arrRef spec0 w = b → (cfg0.win w).isOut = false) (hh0 : b ∉ hostOps0_W) :
    atReturn m c (Proc.devRef .tc b) = m ((c : Thread nD τ).loc b) :=
  (atReturn_keeps m c b h1).trans <| (StableHlo.after_of_writes_sub hostOps1 _ hostOps1_writes hh1).trans <|
    (afterNet1_keeps m c b h0).trans <| (StableHlo.after_of_writes_sub hostOps0 _ hostOps0_writes hh0).trans rfl

theorem atReturn_arg0 (c : Dev nD) : atReturn m c (Proc.devRef .tc main_arg0) = m ((c : Thread nD τ).loc main_arg0) :=
  atReturn_untouched m c main_arg0 (by decide) (by decide) (by decide) (by decide)
theorem atReturn_arg1 (c : Dev nD) : atReturn m c (Proc.devRef .tc main_arg1) = m ((c : Thread nD τ).loc main_arg1) :=
  atReturn_untouched m c main_arg1 (by decide) (by decide) (by decide) (by decide)
theorem atReturn_arg2 (c : Dev nD) : atReturn m c (Proc.devRef .tc main_arg2) = m ((c : Thread nD τ).loc main_arg2) :=
  atReturn_untouched m c main_arg2 (by decide) (by decide) (by decide) (by decide)
theorem atReturn_arg3 (c : Dev nD) : atReturn m c (Proc.devRef .tc main_arg3) = m ((c : Thread nD τ).loc main_arg3) :=
  atReturn_untouched m c main_arg3 (by decide) (by decide) (by decide) (by decide)
theorem atReturn_arg4 (c : Dev nD) : atReturn m c (Proc.devRef .tc main_arg4) = m ((c : Thread nD τ).loc main_arg4) :=
  atReturn_untouched m c main_arg4 (by decide) (by decide) (by decide) (by decide)
theorem atReturn_arg5 (c : Dev nD) : atReturn m c (Proc.devRef .tc main_arg5) = m ((c : Thread nD τ).loc main_arg5) :=
  atReturn_untouched m c main_arg5 (by decide) (by decide) (by decide) (by decide)
theorem atReturn_arg6 (c : Dev nD) : atReturn m c (Proc.devRef .tc main_arg6) = m ((c : Thread nD τ).loc main_arg6) :=
  atReturn_untouched m c main_arg6 (by decide) (by decide) (by decide) (by decide)
theorem atReturn_arg7 (c : Dev nD) : atReturn m c (Proc.devRef .tc main_arg7) = m ((c : Thread nD τ).loc main_arg7) :=
  atReturn_untouched m c main_arg7 (by decide) (by decide) (by decide) (by decide)
theorem atReturn_arg8 (c : Dev nD) : atReturn m c (Proc.devRef .tc main_arg8) = m ((c : Thread nD τ).loc main_arg8) :=
  atReturn_untouched m c main_arg8 (by decide) (by decide) (by decide) (by decide)
theorem atReturn_arg9 (c : Dev nD) : atReturn m c (Proc.devRef .tc main_arg9) = m ((c : Thread nD τ).loc main_arg9) :=
  atReturn_untouched m c main_arg9 (by decide) (by decide) (by decide) (by decide)
theorem atReturn_arg10 (c : Dev nD) : atReturn m c (Proc.devRef .tc main_arg10) = m ((c : Thread nD τ).loc main_arg10) :=
  atReturn_untouched m c main_arg10 (by decide) (by decide) (by decide) (by decide)

/-- The new node vectors: what the node network's write-backs leave in its output array. -/
theorem atReturn_nodes (c : Dev nD) : atReturn m c (Proc.devRef .tc main_v54) = (Net2.dat (inNet2 m) c).arrAt 6 cfg1.N :=
  atReturn_arr m c 6
/-- The new predicate vectors: what the edge network's write-backs left in its second output array, untouched since. -/
theorem atReturn_preds (c : Dev nD) : atReturn m c (Proc.devRef .tc main_v23_1) = (Net1.dat (inNet1 m) c).arrAt 6 cfg0.N :=
  (atReturn_keeps m c main_v23_1 (by decide)).trans <| (StableHlo.after_of_writes_sub hostOps1 _ hostOps1_writes (by decide)).trans <|
    afterNet1_arr m c 6

/-! ## The proof data family and the thread state -/

abbrev noTables : (p : Fin 2) → (pcfgs (F := F) p).Adm := fun p => (cfgs p).toPCfg_adm
/-- Each pipeline's proof data at its own entry contents. -/
def pdats : (p : Fin 2) → (c : Dev nD) → Dat τ (Elt F) Unit ℕ (UR sig nD τ) ℕ (Pipeline.pin (pcfgs (F := F)) noTables p) c
  | ⟨0, _⟩ => fun c => Net1.dat (inNet1 m) c
  | ⟨1, _⟩ => fun c => Net2.dat (inNet2 m) c
abbrev 𝒱₀ : Variants := Variants.none
abbrev L : GSem nD τ sig → Finset Unit := fun _ => ∅
abbrev lv : GSem nD τ sig → Unit → ℕ := fun _ _ => 0
/-- Beside the buffers every item carries the generator register at some state and the core owing nothing. -/
abbrev side (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents, the register at some state. -/
abbrev lastState (c : Dev nD) : sProp 𝕄 := iprop(StableHlo.held (c : Thread nD τ) (Pipeline.ucRefs τ sig) (atReturn m c) ∗ ∃ r, prngReg c r)

/-! ## The two pallas_calls as items -/

set_option backward.isDefEq.respectTransparency.types false in
/-- The edge network: entered with every unscoped buffer at `atNet1`, left with them at `afterNet1`. -/
def net1Item : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (Net1.body_obligation (inNet1 m) c).loose
  hwaits := Pipeline.hwaits_of_owed_zero _ _ _ _ L lv 0 fun _ _ => rfl
  pre c := iprop(StableHlo.held (c : Thread nD τ) (Pipeline.ucRefs τ sig) (atNet1 m c) ∗ side c)
  post c := iprop(StableHlo.held (c : Thread nD τ) (Pipeline.ucRefs τ sig) (afterNet1 m c) ∗ side c)
  X c := iprop(∃ r, prngReg c r)
  Y c := iprop(∃ r, prngReg c r)
  Z c := Pipeline.unscopedRest (Ix := Unit) (Name := ℕ) (U := UR sig nD τ) (Lvl := ℕ) spec0 c (inNet1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (inNet1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (inNet1 m c) (outNet1 m c) ((pdats m 0 c).arrAt · cfg0.N) (net1_exit m c) (net1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node network: entered with every unscoped buffer at `atNet2`, left with them at `atReturn`. -/
def net2Item : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (Net2.body_obligation (inNet2 m) c).loose
  hwaits := Pipeline.hwaits_of_owed_zero _ _ _ _ L lv 1 fun _ _ => rfl
  pre c := iprop(StableHlo.held (c : Thread nD τ) (Pipeline.ucRefs τ sig) (atNet2 m c) ∗ side c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inNet2 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (inNet2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (inNet2 m c) (outNet2 m c) ((pdats m 1 c).arrAt · cfg1.N) (net2_exit m c) (net2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's four items in order. -/
abbrev items : List (Pipeline.Seg (pcfgs (F := F)) noTables (pdats m) () defs₀ 𝒱₀ L lv) :=
  [ .host (hostItem hostOps0 hostOps0_sub hostOps0_fresh (atLaunch m)),
    .region (net1Item m),
    .host (hostItem hostOps1 hostOps1_sub hostOps1_fresh (afterNet1 m)),
    .region (net2Item m) ]

set_option backward.isDefEq.respectTransparency.types false in
/-- Every weakly fair execution from memory `m` with zero counters terminates, nothing faulting, with every unscoped
    buffer of every core at the return's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atReturn m c b) :=
  Pipeline.θ_run_regions_kit (pcfgs (F := F)) noTables (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ side c)) (Tₙ := lastState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atReturn m c b)
    (hfin := fun c s' => by
      iintro ⟨⟨Hh, -⟩, HSI⟩
      unfold StableHlo.held
      imodintro
      iapply (pointsTo_read_all (Pipeline.ucRefs τ sig) (fun b => (((c : Thread nD τ)).1, b)) (atReturn m c) s')
      isplitl [Hh] <;> iassumption)
    (hQ := fun s h c => h c)

/-- The same run with what the claims speak of: the two results named, and every argument array as launched. -/
theorem run_results : θ_run defs (onTc (τ := τ) (main (F := F))) ⟨m, fun _ => 0, ρ⟩ (fun r => ∀ c : Dev nD,
      r.2.mem ((c.tc : Thread nD τ).loc main_v54) = (Net2.dat (inNet2 m) c).arrAt 6 cfg1.N
      ∧ r.2.mem ((c.tc : Thread nD τ).loc main_v23_1) = (Net1.dat (inNet1 m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (unscoped_mem main_v54 (by decide))).trans (atReturn_nodes m c),
     (h c _ (unscoped_mem main_v23_1 (by decide))).trans (atReturn_preds m c),
     (h c _ (unscoped_mem main_arg0 (by decide))).trans (atReturn_arg0 m c),
     (h c _ (unscoped_mem main_arg1 (by decide))).trans (atReturn_arg1 m c),
     (h c _ (unscoped_mem main_arg2 (by decide))).trans (atReturn_arg2 m c),
     (h c _ (unscoped_mem main_arg3 (by decide))).trans (atReturn_arg3 m c),
     (h c _ (unscoped_mem main_arg4 (by decide))).trans (atReturn_arg4 m c),
     (h c _ (unscoped_mem main_arg5 (by decide))).trans (atReturn_arg5 m c),
     (h c _ (unscoped_mem main_arg6 (by decide))).trans (atReturn_arg6 m c),
     (h c _ (unscoped_mem main_arg7 (by decide))).trans (atReturn_arg7 m c),
     (h c _ (unscoped_mem main_arg8 (by decide))).trans (atReturn_arg8 m c),
     (h c _ (unscoped_mem main_arg9 (by decide))).trans (atReturn_arg9 m c),
     (h c _ (unscoped_mem main_arg10 (by decide))).trans (atReturn_arg10 m c)⟩) (run_all m ρ)

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_results m ρ)

end Cert.KernelIdeal.Whole

end
-- ==== Proof.Ideal.Glue.lean ====
/-
  What the two pallas_calls of the idealized kernel program find in their arrays at entry, as pure terms of the launch memory,
  on the extended reals (where narrowing to a shorter float format and widening back are the identity).
  The edge network finds the joined edge features — the gathered subject rows, the predicate rows and the gathered object rows
  side by side, which is the reference's own joined array of the same arguments —, and the two weight matrices and two bias
  vectors as launched. The node network finds the pooled messages — the subject messages scatter-added at the subject positions
  into zeros, then the object messages scatter-added at the object positions — and the column of counts — ones scatter-added
  into zeros over the subject positions followed by the object positions, as one vector of 400000 positions —, and its own
  weights and biases as launched. The positions are columns of the integer edge array with negative entries moved up by 50000.
-/
import proofs.«134044_j3530463117740_2_alg».proof.Proof.Ideal.Whole
import proofs.«134044_j3530463117740_2_alg».proof.Proof.Gen.ReferenceIdeal.Read

set_option maxRecDepth 16384

noncomputable section

namespace Cert.KernelIdeal.Glue

open Cert.KernelIdeal Cert.KernelIdeal.Gen Cert.KernelIdeal.Whole
open Idealize.ShloMosaic Idealize.ShloMosaic.TcCoe Idealize.SL.Sem Idealize.ShloMosaic.StableHlo

/-! ## The host operations between the two networks, as functions -/

/-- A vector of positions with its negative entries moved up by 50000, as a column. -/
def posCol (s : IVec S200000 32) : IVec S200000x1 32 :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 50000#32))) s)

/-- The pooled messages: the subject messages added in at the subject positions, then the object messages at the object
    positions, starting from zeros. -/
def poolOf (s o : IVec S200000 32) (S O : FVec Ideal S200000x512 .bf16) : FVec Ideal S50000x512 .f32 :=
  Host.scatterAdd scatter_S50000x512_S200000x1_S200000x512_1_0_0_1
    (Host.scatterAdd scatter_S50000x512_S200000x1_S200000x512_1_0_0_1
      (broadcastInDim S50000x512 ![] bcast_S_S50000x512 (constant S_ .f32 0x00000000#32)) (posCol s) (extf .f32 S bitsLt_bf16_f32))
    (posCol o) (extf .f32 O bitsLt_bf16_f32)

/-- The subject positions followed by the object positions. -/
def joined (s o : IVec S200000 32) : IVec S400000 32 :=
  concatenate S400000 0 [⟨S200000, s⟩, ⟨S200000, o⟩] concatenates_S200000_S200000_S400000_d0

/-- The joined positions with negative entries moved up by 50000, as a column. -/
def joinedCol (s o : IVec S200000 32) : IVec S400000x1 32 :=
  broadcastInDim S400000x1 ![0] bcast_S400000_S400000x1_0
    (select (cmpi .slt (joined s o) (broadcastInDim S400000 ![] bcast_S_S400000 (constantI S_ 32 0#32)))
      (addi (joined s o) (broadcastInDim S400000 ![] bcast_S_S400000 (constantI S_ 32 50000#32))) (joined s o))

/-- The counts: a one added in at every joined position, starting from zeros. -/
def countsOf (s o : IVec S200000 32) : FVec Ideal S50000 .f32 :=
  Host.scatterAdd scatter_S50000_S400000x1_S400000_n_0_0_1
    (broadcastInDim S50000 ![] bcast_S_S50000 (constant S_ .f32 0x00000000#32)) (joinedCol s o)
    (broadcastInDim S400000 ![] bcast_S_S400000 (constant S_ .f32 0x3F800000#32))

variable (m : (ℓ : Loc nD τ sig) → Buf (Elt Ideal) ℓ)

/-! ## What the edge network finds -/

theorem feat_in (c : Dev nD) :
    inNet1 m c main_v20 = Cert.ReferenceIdeal.Read.val_main_v18 (F := Ideal) (m ((c.tc : Thread nD τ).loc main_arg0)) (m ((c.tc : Thread nD τ).loc main_arg1)) (m ((c.tc : Thread nD τ).loc main_arg2)) := by
  show StableHlo.after hostOps0 (atLaunch m c) (Proc.devRef .tc main_v20) = _
  after_results
  rfl
theorem wa_in (c : Dev nD) : inNet1 m c main_v21 = (m ((c.tc : Thread nD τ).loc main_arg3)) := by
  show StableHlo.after hostOps0 (atLaunch m c) (Proc.devRef .tc main_v21) = _
  after_results
  rfl
theorem ba_in (c : Dev nD) : inNet1 m c main_arg4 = (m ((c.tc : Thread nD τ).loc main_arg4)) := by
  show StableHlo.after hostOps0 (atLaunch m c) (Proc.devRef .tc main_arg4) = _
  after_results
theorem wb_in (c : Dev nD) : inNet1 m c main_v22 = (m ((c.tc : Thread nD τ).loc main_arg5)) := by
  show StableHlo.after hostOps0 (atLaunch m c) (Proc.devRef .tc main_v22) = _
  after_results
  rfl
theorem bb_in (c : Dev nD) : inNet1 m c main_arg6 = (m ((c.tc : Thread nD τ).loc main_arg6)) := by
  show StableHlo.after hostOps0 (atLaunch m c) (Proc.devRef .tc main_arg6) = _
  after_results

/-- The subject and object position vectors, written before the edge network and kept through it. -/
theorem subjPos (c : Dev nD) : afterNet1 m c (Proc.devRef .tc main_v1) = Cert.ReferenceIdeal.Read.val_main_v1 (F := Ideal) (m ((c.tc : Thread nD τ).loc main_arg2)) :=
  (afterNet1_keeps m c main_v1 (by decide)).trans (by
    show StableHlo.after hostOps0 (atLaunch m c) (Proc.devRef .tc main_v1) = _
    after_results
    rfl)
theorem objPos (c : Dev nD) : afterNet1 m c (Proc.devRef .tc main_v3) = Cert.ReferenceIdeal.Read.val_main_v3 (F := Ideal) (m ((c.tc : Thread nD τ).loc main_arg2)) :=
  (afterNet1_keeps m c main_v3 (by decide)).trans (by
    show StableHlo.after hostOps0 (atLaunch m c) (Proc.devRef .tc main_v3) = _
    after_results
    rfl)

/-- An argument array is still as launched when the node network is entered. -/
theorem arg_kept (c : Dev nD) (b : Ref sig .tc) (h0 : ∀ w : Fin cfg0.W, Pipeline.arrRef spec0 w = b → (cfg0.win w).isOut = false)
    (hh0 : b ∉ hostOps0_W) : afterNet1 m c (Proc.devRef .tc b) = m ((c : Thread nD τ).loc b) :=
  (afterNet1_keeps m c b h0).trans ((StableHlo.after_of_writes_sub hostOps0 _ hostOps0_writes hh0).trans rfl)

/-! ## What the node network finds -/

set_option maxHeartbeats 4000000 in
theorem pooled_in (c : Dev nD) :
    inNet2 m c main_v40 = poolOf (afterNet1 m c (Proc.devRef .tc main_v1)) (afterNet1 m c (Proc.devRef .tc main_v3))
      (afterNet1 m c (Proc.devRef .tc main_v23_0)) (afterNet1 m c (Proc.devRef .tc main_v23_2)) := by
  show StableHlo.after hostOps1 (afterNet1 m c) (Proc.devRef .tc main_v40) = _
  after_results_simp
  rfl
set_option maxHeartbeats 4000000 in
theorem counts_in (c : Dev nD) :
    inNet2 m c main_v51 = broadcastInDim S50000x1 ![0] bcast_S50000_S50000x1_0
      (countsOf (afterNet1 m c (Proc.devRef .tc main_v1)) (afterNet1 m c (Proc.devRef .tc main_v3))) := by
  show StableHlo.after hostOps1 (afterNet1 m c) (Proc.devRef .tc main_v51) = _
  after_results_simp
  rfl
theorem w2a_in (c : Dev nD) : inNet2 m c main_v52 = (m ((c.tc : Thread nD τ).loc main_arg7)) := by
  show StableHlo.after hostOps1 (afterNet1 m c) (Proc.devRef .tc main_v52) = _
  after_results
  exact arg_kept m c main_arg7 (by decide) (by decide)
theorem b2a_in (c : Dev nD) : inNet2 m c main_arg8 = (m ((c.tc : Thread nD τ).loc main_arg8)) := by
  show StableHlo.after hostOps1 (afterNet1 m c) (Proc.devRef .tc main_arg8) = _
  after_results
  exact arg_kept m c main_arg8 (by decide) (by decide)
theorem w2b_in (c : Dev nD) : inNet2 m c main_v53 = (m ((c.tc : Thread nD τ).loc main_arg9)) := by
  show StableHlo.after hostOps1 (afterNet1 m c) (Proc.devRef .tc main_v53) = _
  after_results
  exact arg_kept m c main_arg9 (by decide) (by decide)
theorem b2b_in (c : Dev nD) : inNet2 m c main_arg10 = (m ((c.tc : Thread nD τ).loc main_arg10)) := by
  show StableHlo.after hostOps1 (afterNet1 m c) (Proc.devRef .tc main_arg10) = _
  after_results
  exact arg_kept m c main_arg10 (by decide) (by decide)

end Cert.KernelIdeal.Glue

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«134044_j3530463117740_2_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.LibReluLayer.lean ====
/-
  A dense layer followed by the rectifier, read at an index on the extended reals, in the two spellings a kernel tile and a
  host program give it. Entry (r, j) of max(x · w + b, 0) is the larger of zero and the sum over the contraction position k
  of x(r, k) · w(k, j), plus b(j). A tile multiplies (identically reshaped) operands into a zero accumulator, recasts the bias
  vector as a one-row matrix, spreads it down the rows, and takes the maximum with a scalar zero spread over the tile; a host
  program takes the product without an accumulator, spreads the bias as a row and then down the rows, and takes the maximum
  with a zero constant spread over the array. Both read the same. The zero is kept as the word it is printed with. Nothing
  here depends on a program: the product's dimension numbers enter through the hypothesis that they are those of a plain
  [M, K] × [K, N] product.
-/
import proofs.«134044_j3530463117740_2_alg».proof.Proof.LibPlainDot
import proofs.«134044_j3530463117740_2_alg».proof.Proof.LibPlainDotGeneral
import proofs.«134044_j3530463117740_2_alg».proof.Proof.LibKeepdims
import proofs.«134044_j3530463117740_2_alg».proof.Proof.LibJoinLayout
import Idealize.ShloMosaic.Lib.ValueIdx
import Idealize.ShloMosaic.Lib.ValueLayout
import Idealize.ShloMosaic.Lib.Pipeline.Value
import Idealize.ShloMosaic.PureOps.Ideal.Laws

noncomputable section

namespace ReluLayer

open Idealize.ShloMosaic Idealize.ShloMosaic.ValueIdx

/-- One output entry of a rectified dense layer: the larger of the zero word's value and Σ_k x(k) · w(k) + b. -/
def unit {K : ℕ} (x w : Fin K → EReal) (b : EReal) : EReal :=
  max ((∑ k : Fin K, x k * w k) + b) (Ideal.ofBits .f32 0x00000000#32)

/-- One output entry of two rectified dense layers in a row: the hidden entry h is the first layer's unit on column h of
    the first weights, and the output is the second layer's unit on the hidden row. -/
def two {K H : ℕ} (x : Fin K → EReal) (wa : Fin K → Fin H → EReal) (ba : Fin H → EReal) (wb : Fin H → EReal) (bb : EReal) : EReal :=
  unit (fun h => unit x (fun k => wa k h) (ba h)) wb bb

variable {M K N : Nat} {φ₁ φ₂ : FTy}

/-- The layer as a kernel tile spells it, at entry (r, j): the left operand as it stands (a loaded block, or the narrowed
    hidden tile of the layer before), the weights identically reshaped. -/
theorem tile_apply (D : DotDims ⟨2, ![M, K]⟩ ⟨2, ![K, N]⟩ ⟨2, ![M, N]⟩) (hD : PlainDot.IsPlain D)
    (prec : Option ContractPrecision) (x : FVec Ideal ⟨2, ![M, K]⟩ φ₁) (w : FVec Ideal ⟨2, ![K, N]⟩ φ₂)
    (b : FVec Ideal ⟨1, ![N]⟩ .f32)
    (hw : (⟨2, ![K, N]⟩ : Shape).ShapeCasts ⟨2, ![K, N]⟩)
    (hb : (⟨1, ![N]⟩ : Shape).ShapeCasts ⟨2, ![1, N]⟩) (hbb : (⟨2, ![1, N]⟩ : Shape).Broadcasts ⟨2, ![M, N]⟩)
    (r : Fin M) (j : Fin N) :
    maximumf (addf (matmul D prec x (shapeCast ⟨2, ![K, N]⟩ w hw)
          (constant (F := Ideal) ⟨2, ![M, N]⟩ .f32 0x00000000#32))
        (broadcastTo ⟨2, ![M, N]⟩ (shapeCast ⟨2, ![1, N]⟩ b hb) hbb))
      (broadcast ⟨2, ![M, N]⟩ (Scalar.ofBits (F := Ideal) .f32 0x00000000#32)) (ix2 r j)
      = unit (fun k => x (ix2 r k)) (fun k => w (ix2 k j)) (b (ix1 j)) := by
  rw [maximumf_apply, addf_apply, shapeCast_self,
    Keepdims.broadcastTo_row_of_vec_apply b hb hbb r j]
  exact congrArg (fun s : EReal => max (s + b (ix1 j)) (Ideal.ofBits .f32 0x00000000#32))
    (PlainDot.matmul_zero_apply D hD prec x w r j)

/-- The layer as a host program spells it, at entry (r, j). -/
theorem host_apply (D : DotDims ⟨2, ![M, K]⟩ ⟨2, ![K, N]⟩ ⟨2, ![M, N]⟩) (hD : PlainDot.IsPlain D)
    (prec : Option ContractPrecision) (x : FVec Ideal ⟨2, ![M, K]⟩ φ₁) (w : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (r : Fin M) (j : Fin N) :
    maximumf (addf (Host.dotGeneral (F := Ideal) D prec x w)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 r j)
      = unit (fun k => x (ix2 r k)) (fun k => w (ix2 k j)) (b (ix1 j)) := by
  rw [maximumf_apply, addf_apply, JoinLayout.broadcastInDim_row_of_vec_apply b h1 h2 r j,
    PlainDot.dotGeneral_apply D hD prec x w r j]
  rfl

end ReluLayer

end
-- ==== Proof.Ideal.Net1Value.lean ====
/-
  What the edge network leaves in its three output arrays, on the extended reals, as functions of the arrays it finds at entry.
  Write X for the 200000 × 384 joined edge features, Wa, ba for the first layer's weights and bias and Wb, bb for the second's.
  The body computes, for the 1600 rows of its block, the 1152-wide rectified second layer of the rectified first layer; entry
  (p, j) of that tile is a function of row p of the feature block and of the weights, and the block of grid point t holds rows
  1600·t … 1600·t + 1599 of X, the weights and biases being whole at every point. So the tile's entry (p, j) is entry
  (1600·t + p, j) of ONE function `wide` of the whole arrays. The three stores write column ranges of the tile — columns
  0 … 511 (subject messages), 512 … 639 (new predicate vectors), 640 … 1151 (object messages) — and the 125 row blocks cover
  all 200000 rows, so each output array ends as that column range of `wide`.
-/
import proofs.«134044_j3530463117740_2_alg».proof.Proof.Ideal.Net1
import proofs.«134044_j3530463117740_2_alg».proof.Proof.LibReluLayer
import Idealize.ShloMosaic.Lib.Pipeline.Value
import Idealize.ShloMosaic.Lib.ValueIdx
import Idealize.ShloMosaic.Lib.ValueLayout

set_option maxRecDepth 16384

noncomputable section

namespace Cert.KernelIdeal.Net1Value

open Cert.KernelIdeal Cert.KernelIdeal.Gen
open Idealize.ShloMosaic Idealize.ShloMosaic.TcCoe Idealize.SL.Sem Idealize.ShloMosaic.ValueIdx
open Idealize.ShloMosaic.Pipeline (Dat)

/-! ## The tile's two products are plain matrix products -/

theorem plainA : PlainDot.IsPlain dot_S1600x384_S384x512_S1600x512_1_0_0_1_n_n :=
  ⟨rfl, rfl, fun _ _ => rfl, fun _ _ => rfl, fun _ _ => rfl, fun _ _ => rfl⟩
theorem plainB : PlainDot.IsPlain dot_S1600x512_S512x1152_S1600x1152_1_0_0_1_n_n :=
  ⟨rfl, rfl, fun _ _ => rfl, fun _ _ => rfl, fun _ _ => rfl, fun _ _ => rfl⟩

/-! ## The tile at an index -/

/-- Entry (p, j) of the 1600 × 1152 tile: two rectified layers on row p of the feature block. -/
theorem tile_apply (v0 : Vec Ideal S1600x384 .bf16) (v2 : Vec Ideal S384x512 .bf16) (v5 : Vec Ideal S512 .f32)
    (v12 : Vec Ideal S512x1152 .bf16) (v15 : Vec Ideal S1152 .f32) (p : Fin 1600) (j : Fin 1152) :
    k0_pay1 v0 v2 v5 v12 v15 (ix2 p j)
      = ReluLayer.two (fun l : Fin 384 => v0 (ix2 p l)) (fun (l : Fin 384) (h : Fin 512) => v2 (ix2 l h)) (fun h : Fin 512 => v5 (ix1 h))
          (fun h : Fin 512 => v12 (ix2 h j)) (v15 (ix1 j)) := by
  unfold k0_pay1
  refine (ReluLayer.tile_apply dot_S1600x512_S512x1152_S1600x1152_1_0_0_1_n_n plainB none _ v12 v15 _ _ _ p j).trans ?_
  unfold ReluLayer.two
  congr 1
  funext h
  rw [truncf_apply]
  refine (ReluLayer.tile_apply dot_S1600x384_S384x512_S1600x512_1_0_0_1_n_n plainA none _ v2 v5 _ _ _ p h).trans ?_
  simp only [shapeCast_self]

/-! ## The whole-array functions -/

/-- Entry (r, j) of the 200000 × 1152 second-layer output on whole arrays. -/
def wide (X : FVec Ideal S200000x384 .bf16) (Wa : FVec Ideal S384x512 .bf16) (ba : FVec Ideal S512 .f32)
    (Wb : FVec Ideal S512x1152 .bf16) (bb : FVec Ideal S1152 .f32) (r : Fin 200000) (j : Fin 1152) : EReal :=
  ReluLayer.two (fun l : Fin 384 => X (ix2 r l)) (fun (l : Fin 384) (h : Fin 512) => Wa (ix2 l h)) (fun h : Fin 512 => ba (ix1 h))
    (fun h : Fin 512 => Wb (ix2 h j)) (bb (ix1 j))

/-- The subj array: columns 0 … 511 of `wide`. -/
def subjOf (X : FVec Ideal S200000x384 .bf16) (Wa : FVec Ideal S384x512 .bf16) (ba : FVec Ideal S512 .f32)
    (Wb : FVec Ideal S512x1152 .bf16) (bb : FVec Ideal S1152 .f32) : FVec Ideal S200000x512 .bf16 :=
  fun i => wide X Wa ba Wb bb ⟨(i 0).val, idx2_lt0 i⟩ ⟨0 + (i 1).val, by have := idx2_lt1 i; omega⟩

/-- The pred array: columns 512 … 639 of `wide`. -/
def predOf (X : FVec Ideal S200000x384 .bf16) (Wa : FVec Ideal S384x512 .bf16) (ba : FVec Ideal S512 .f32)
    (Wb : FVec Ideal S512x1152 .bf16) (bb : FVec Ideal S1152 .f32) : FVec Ideal S200000x128 .f32 :=
  fun i => wide X Wa ba Wb bb ⟨(i 0).val, idx2_lt0 i⟩ ⟨512 + (i 1).val, by have := idx2_lt1 i; omega⟩

/-- The obj array: columns 640 … 1151 of `wide`. -/
def objOf (X : FVec Ideal S200000x384 .bf16) (Wa : FVec Ideal S384x512 .bf16) (ba : FVec Ideal S512 .f32)
    (Wb : FVec Ideal S512x1152 .bf16) (bb : FVec Ideal S1152 .f32) : FVec Ideal S200000x512 .bf16 :=
  fun i => wide X Wa ba Wb bb ⟨(i 0).val, idx2_lt0 i⟩ ⟨640 + (i 1).val, by have := idx2_lt1 i; omega⟩

/-! ## The blocks at an index -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature window and the three output windows are at row block t, column
    block 0; the weights and biases are at block 0 throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 125 := lt_of_lt_of_eq t.isLt N_0

/-- Row p of the feature block at point t is row 1600·t + p of the feature array. -/
theorem feat_apply (c : Dev nD) (t : Fin cfg0.N) (p : Fin 1600) (l : Fin 384) :
    Net1.blk V c 0 t (ix2 p l) = V c main_v20 (ix2 (⟨1600 * t.val + p.val, by have := t_lt t; omega⟩ : Fin 200000) l) := by
  obtain ⟨e0, e1, -⟩ := idx_facts t
  show V c main_v20 (((cfg0.win 0).blk t).view.emb (ix2 p l)) = _
  congr 1
  funext a; apply Fin.ext
  match a with
  | ⟨0, _⟩ => show win0_0.index t (0 : Fin 2) * 1600 + 1 * p.val = 1600 * t.val + p.val; omega
  | ⟨1, _⟩ => show win0_0.index t (1 : Fin 2) * 384 + 1 * l.val = l.val; omega

theorem wa_apply (c : Dev nD) (t : Fin cfg0.N) (l : Fin 384) (h : Fin 512) :
    Net1.blk V c 1 t (ix2 l h) = V c main_v21 (ix2 l h) := by
  obtain ⟨-, -, e0, e1, -⟩ := idx_facts t
  show V c main_v21 (((cfg0.win 1).blk t).view.emb (ix2 l h)) = _
  congr 1
  funext a; apply Fin.ext
  match a with
  | ⟨0, _⟩ => show win0_1.index t (0 : Fin 2) * 384 + 1 * l.val = l.val; omega
  | ⟨1, _⟩ => show win0_1.index t (1 : Fin 2) * 512 + 1 * h.val = h.val; omega

theorem ba_apply (c : Dev nD) (t : Fin cfg0.N) (h : Fin 512) :
    Net1.blk V c 2 t (ix1 h) = V c main_arg4 (ix1 h) := by
  obtain ⟨-, -, -, -, e0, -⟩ := idx_facts t
  show V c main_arg4 (((cfg0.win 2).blk t).view.emb (ix1 h)) = _
  congr 1
  funext a; apply Fin.ext
  match a with
  | ⟨0, _⟩ => show win0_2.index t (0 : Fin 1) * 512 + 1 * h.val = h.val; omega

theorem wb_apply (c : Dev nD) (t : Fin cfg0.N) (h : Fin 512) (j : Fin 1152) :
    Net1.blk V c 3 t (ix2 h j) = V c main_v22 (ix2 h j) := by
  obtain ⟨-, -, -, -, -, e0, e1, -⟩ := idx_facts t
  show V c main_v22 (((cfg0.win 3).blk t).view.emb (ix2 h j)) = _
  congr 1
  funext a; apply Fin.ext
  match a with
  | ⟨0, _⟩ => show win0_3.index t (0 : Fin 2) * 512 + 1 * h.val = h.val; omega
  | ⟨1, _⟩ => show win0_3.index t (1 : Fin 2) * 1152 + 1 * j.val = j.val; omega

theorem bb_apply (c : Dev nD) (t : Fin cfg0.N) (j : Fin 1152) :
    Net1.blk V c 4 t (ix1 j) = V c main_arg6 (ix1 j) := by
  obtain ⟨-, -, -, -, -, -, -, e0, -⟩ := idx_facts t
  show V c main_arg6 (((cfg0.win 4).blk t).view.emb (ix1 j)) = _
  congr 1
  funext a; apply Fin.ext
  match a with
  | ⟨0, _⟩ => show win0_4.index t (0 : Fin 1) * 1152 + 1 * j.val = j.val; omega

/-- The tile of point t at (p, j) is `wide` of the whole arrays at (1600·t + p, j). -/
theorem tile_at (c : Dev nD) (t : Fin cfg0.N) (p : Fin 1600) (j : Fin 1152) :
    k0_pay1 (Net1.blk V c 0 t) (Net1.blk V c 1 t) (Net1.blk V c 2 t) (Net1.blk V c 3 t) (Net1.blk V c 4 t) (ix2 p j)
      = wide (V c main_v20) (V c main_v21) (V c main_arg4) (V c main_v22) (V c main_arg6) ⟨1600 * t.val + p.val, by have := t_lt t; omega⟩ j := by
  rw [tile_apply]
  unfold wide
  simp only [feat_apply V c t, wa_apply V c t, ba_apply V c t, wb_apply V c t, bb_apply V c t]

/-! ## The subj array (window 5) -/

/-- What point t writes back to window 5 is block t of `subjOf` of the entry arrays. -/
theorem subj_flushed (c : Dev nD) (t : Fin cfg0.N) :
    (Net1.dat V c).flushed 5 t = ((cfg0.win 5).blk t).view.read (Elt Ideal) (subjOf (V c main_v20) (V c main_v21) (V c main_arg4) (V c main_v22) (V c main_arg6)) := by
  show (cfg0.win 5).cut (grid0.coords t) ((Net1.dat V c).after 5 t) = _
  rw [Net1.after5]
  unfold Net1.subjOut
  rw [View.canon_unit_zero hz2]
  simp only [View.ld_unit_zero (S := S1600x384) hz2, View.ld_unit_zero (S := S384x512) hz2, View.ld_unit_zero (S := S512) hz1,
    View.ld_unit_zero (S := S512x1152) hz2, View.ld_unit_zero (S := S1152) hz1]
  obtain ⟨-, -, -, -, -, -, -, -, e50, e51, e60, e61, e70, e71⟩ := idx_facts t
  funext y
  obtain ⟨p, q, rfl⟩ : ∃ (p : Fin 1600) (q : Fin 512), y = ix2 p q := ⟨y 0, y 1, eq_ix2 y⟩
  have hemb : ((cfg0.win 5).blk t).view.emb (ix2 p q) = ix2 (⟨1600 * t.val + p.val, by have := t_lt t; omega⟩ : Fin 200000) q := by
    funext a; apply Fin.ext
    match a with
    | ⟨0, _⟩ => show win0_5.index t (0 : Fin 2) * 1600 + 1 * p.val = 1600 * t.val + p.val; omega
    | ⟨1, _⟩ => show win0_5.index t (1 : Fin 2) * 512 + 1 * q.val = q.val; omega
  show k0_pay2 (Net1.blk V c 0 t) (Net1.blk V c 1 t) (Net1.blk V c 2 t) (Net1.blk V c 3 t) (Net1.blk V c 4 t) (ix2 p q)
    = subjOf (V c main_v20) (V c main_v21) (V c main_arg4) (V c main_v22) (V c main_arg6) (((cfg0.win 5).blk t).view.emb (ix2 p q))
  rw [hemb]
  unfold k0_pay2
  rw [truncf_apply]
  rw [extractStridedSlice_apply ![0, 0] _ _ (ix2 p q) (ix2 p (⟨0 + q.val, by have := q.isLt; omega⟩ : Fin 1152)) (fun a => match a with
    | ⟨0, _⟩ => by show p.val = 0 + p.val; omega
    | ⟨1, _⟩ => by show 0 + q.val = 0 + q.val; rfl)]
  rw [tile_at V c t p ⟨0 + q.val, by have := q.isLt; omega⟩]
  rfl

/-- Every index of the array lies in the block of the point its row falls in. -/
theorem subj_cover (i : S200000x512.Idx) :
    ∃ t : Fin cfg0.N, (cfg0.win 5).flush t = true ∧ i ∈ ((cfg0.win 5).blk t).view.set := by
  have hi0 : (i 0).val < 200000 := idx2_lt0 i
  have hi1 : (i 1).val < 512 := idx2_lt1 i
  let t : Fin cfg0.N := ⟨(i 0).val / 1600, by rw [show cfg0.N = 125 from N_0]; omega⟩
  obtain ⟨-, -, -, -, -, -, -, -, e50, e51, e60, e61, e70, e71⟩ := idx_facts t
  refine ⟨t, flush0_5 t, ?_⟩
  show i ∈ ((View.whole main_v23_0).slice (win0_5.rect t)).set
  rw [View.set_slice_whole, Rect.mem_set_unit]
  intro a
  have ht : t.val = (i 0).val / 1600 := rfl
  match a with
  | ⟨0, _⟩ => show win0_5.index t (0 : Fin 2) * 1600 ≤ (i 0).val ∧ (i 0).val < win0_5.index t (0 : Fin 2) * 1600 + 1600; omega
  | ⟨1, _⟩ => show win0_5.index t (1 : Fin 2) * 512 ≤ (i 1).val ∧ (i 1).val < win0_5.index t (1 : Fin 2) * 512 + 512; omega

/-- The subj array after the edge network. -/
theorem subj_final (c : Dev nD) : (Net1.dat V c).arrAt 5 cfg0.N = subjOf (V c main_v20) (V c main_v21) (V c main_arg4) (V c main_v22) (V c main_arg6) :=
  (Net1.dat V c).arrAt_eq_of_cover 5 _ (fun t _ => subj_flushed V c t) (subj_cover)

/-! ## The pred array (window 6) -/

/-- What point t writes back to window 6 is block t of `predOf` of the entry arrays. -/
theorem pred_flushed (c : Dev nD) (t : Fin cfg0.N) :
    (Net1.dat V c).flushed 6 t = ((cfg0.win 6).blk t).view.read (Elt Ideal) (predOf (V c main_v20) (V c main_v21) (V c main_arg4) (V c main_v22) (V c main_arg6)) := by
  show (cfg0.win 6).cut (grid0.coords t) ((Net1.dat V c).after 6 t) = _
  rw [Net1.after6]
  unfold Net1.predOut
  rw [View.canon_unit_zero hz2]
  simp only [View.ld_unit_zero (S := S1600x384) hz2, View.ld_unit_zero (S := S384x512) hz2, View.ld_unit_zero (S := S512) hz1,
    View.ld_unit_zero (S := S512x1152) hz2, View.ld_unit_zero (S := S1152) hz1]
  obtain ⟨-, -, -, -, -, -, -, -, e50, e51, e60, e61, e70, e71⟩ := idx_facts t
  funext y
  obtain ⟨p, q, rfl⟩ : ∃ (p : Fin 1600) (q : Fin 128), y = ix2 p q := ⟨y 0, y 1, eq_ix2 y⟩
  have hemb : ((cfg0.win 6).blk t).view.emb (ix2 p q) = ix2 (⟨1600 * t.val + p.val, by have := t_lt t; omega⟩ : Fin 200000) q := by
    funext a; apply Fin.ext
    match a with
    | ⟨0, _⟩ => show win0_6.index t (0 : Fin 2) * 1600 + 1 * p.val = 1600 * t.val + p.val; omega
    | ⟨1, _⟩ => show win0_6.index t (1 : Fin 2) * 128 + 1 * q.val = q.val; omega
  show k0_pay3 (Net1.blk V c 0 t) (Net1.blk V c 1 t) (Net1.blk V c 2 t) (Net1.blk V c 3 t) (Net1.blk V c 4 t) (ix2 p q)
    = predOf (V c main_v20) (V c main_v21) (V c main_arg4) (V c main_v22) (V c main_arg6) (((cfg0.win 6).blk t).view.emb (ix2 p q))
  rw [hemb]
  unfold k0_pay3
  rw [extractStridedSlice_apply ![0, 512] _ _ (ix2 p q) (ix2 p (⟨512 + q.val, by have := q.isLt; omega⟩ : Fin 1152)) (fun a => match a with
    | ⟨0, _⟩ => by show p.val = 0 + p.val; omega
    | ⟨1, _⟩ => by show 512 + q.val = 512 + q.val; rfl)]
  rw [tile_at V c t p ⟨512 + q.val, by have := q.isLt; omega⟩]
  rfl

/-- Every index of the array lies in the block of the point its row falls in. -/
theorem pred_cover (i : S200000x128.Idx) :
    ∃ t : Fin cfg0.N, (cfg0.win 6).flush t = true ∧ i ∈ ((cfg0.win 6).blk t).view.set := by
  have hi0 : (i 0).val < 200000 := idx2_lt0 i
  have hi1 : (i 1).val < 128 := idx2_lt1 i
  let t : Fin cfg0.N := ⟨(i 0).val / 1600, by rw [show cfg0.N = 125 from N_0]; omega⟩
  obtain ⟨-, -, -, -, -, -, -, -, e50, e51, e60, e61, e70, e71⟩ := idx_facts t
  refine ⟨t, flush0_6 t, ?_⟩
  show i ∈ ((View.whole main_v23_1).slice (win0_6.rect t)).set
  rw [View.set_slice_whole, Rect.mem_set_unit]
  intro a
  have ht : t.val = (i 0).val / 1600 := rfl
  match a with
  | ⟨0, _⟩ => show win0_6.index t (0 : Fin 2) * 1600 ≤ (i 0).val ∧ (i 0).val < win0_6.index t (0 : Fin 2) * 1600 + 1600; omega
  | ⟨1, _⟩ => show win0_6.index t (1 : Fin 2) * 128 ≤ (i 1).val ∧ (i 1).val < win0_6.index t (1 : Fin 2) * 128 + 128; omega

/-- The pred array after the edge network. -/
theorem pred_final (c : Dev nD) : (Net1.dat V c).arrAt 6 cfg0.N = predOf (V c main_v20) (V c main_v21) (V c main_arg4) (V c main_v22) (V c main_arg6) :=
  (Net1.dat V c).arrAt_eq_of_cover 6 _ (fun t _ => pred_flushed V c t) (pred_cover)

/-! ## The obj array (window 7) -/

/-- What point t writes back to window 7 is block t of `objOf` of the entry arrays. -/
theorem obj_flushed (c : Dev nD) (t : Fin cfg0.N) :
    (Net1.dat V c).flushed 7 t = ((cfg0.win 7).blk t).view.read (Elt Ideal) (objOf (V c main_v20) (V c main_v21) (V c main_arg4) (V c main_v22) (V c main_arg6)) := by
  show (cfg0.win 7).cut (grid0.coords t) ((Net1.dat V c).after 7 t) = _
  rw [Net1.after7]
  unfold Net1.objOut
  rw [View.canon_unit_zero hz2]
  simp only [View.ld_unit_zero (S := S1600x384) hz2, View.ld_unit_zero (S := S384x512) hz2, View.ld_unit_zero (S := S512) hz1,
    View.ld_unit_zero (S := S512x1152) hz2, View.ld_unit_zero (S := S1152) hz1]
  obtain ⟨-, -, -, -, -, -, -, -, e50, e51, e60, e61, e70, e71⟩ := idx_facts t
  funext y
  obtain ⟨p, q, rfl⟩ : ∃ (p : Fin 1600) (q : Fin 512), y = ix2 p q := ⟨y 0, y 1, eq_ix2 y⟩
  have hemb : ((cfg0.win 7).blk t).view.emb (ix2 p q) = ix2 (⟨1600 * t.val + p.val, by have := t_lt t; omega⟩ : Fin 200000) q := by
    funext a; apply Fin.ext
    match a with
    | ⟨0, _⟩ => show win0_7.index t (0 : Fin 2) * 1600 + 1 * p.val = 1600 * t.val + p.val; omega
    | ⟨1, _⟩ => show win0_7.index t (1 : Fin 2) * 512 + 1 * q.val = q.val; omega
  show k0_pay4 (Net1.blk V c 0 t) (Net1.blk V c 1 t) (Net1.blk V c 2 t) (Net1.blk V c 3 t) (Net1.blk V c 4 t) (ix2 p q)
    = objOf (V c main_v20) (V c main_v21) (V c main_arg4) (V c main_v22) (V c main_arg6) (((cfg0.win 7).blk t).view.emb (ix2 p q))
  rw [hemb]
  unfold k0_pay4
  rw [truncf_apply]
  rw [extractStridedSlice_apply ![0, 640] _ _ (ix2 p q) (ix2 p (⟨640 + q.val, by have := q.isLt; omega⟩ : Fin 1152)) (fun a => match a with
    | ⟨0, _⟩ => by show p.val = 0 + p.val; omega
    | ⟨1, _⟩ => by show 640 + q.val = 640 + q.val; rfl)]
  rw [tile_at V c t p ⟨640 + q.val, by have := q.isLt; omega⟩]
  rfl

/-- Every index of the array lies in the block of the point its row falls in. -/
theorem obj_cover (i : S200000x512.Idx) :
    ∃ t : Fin cfg0.N, (cfg0.win 7).flush t = true ∧ i ∈ ((cfg0.win 7).blk t).view.set := by
  have hi0 : (i 0).val < 200000 := idx2_lt0 i
  have hi1 : (i 1).val < 512 := idx2_lt1 i
  let t : Fin cfg0.N := ⟨(i 0).val / 1600, by rw [show cfg0.N = 125 from N_0]; omega⟩
  obtain ⟨-, -, -, -, -, -, -, -, e50, e51, e60, e61, e70, e71⟩ := idx_facts t
  refine ⟨t, flush0_7 t, ?_⟩
  show i ∈ ((View.whole main_v23_2).slice (win0_7.rect t)).set
  rw [View.set_slice_whole, Rect.mem_set_unit]
  intro a
  have ht : t.val = (i 0).val / 1600 := rfl
  match a with
  | ⟨0, _⟩ => show win0_7.index t (0 : Fin 2) * 1600 ≤ (i 0).val ∧ (i 0).val < win0_7.index t (0 : Fin 2) * 1600 + 1600; omega
  | ⟨1, _⟩ => show win0_7.index t (1 : Fin 2) * 512 ≤ (i 1).val ∧ (i 1).val < win0_7.index t (1 : Fin 2) * 512 + 512; omega

/-- The obj array after the edge network. -/
theorem obj_final (c : Dev nD) : (Net1.dat V c).arrAt 7 cfg0.N = objOf (V c main_v20) (V c main_v21) (V c main_arg4) (V c main_v22) (V c main_arg6) :=
  (Net1.dat V c).arrAt_eq_of_cover 7 _ (fun t _ => obj_flushed V c t) (obj_cover)

end Cert.KernelIdeal.Net1Value

end
-- ==== Proof.Ideal.Net2Value.lean ====
/-
  What the node network leaves in its output array, on the extended reals, as a function of the arrays it finds at entry.
  Write P for the 50000 × 512 pooled messages, C for the 50000 × 1 column of incidence counts, Wa, ba for the first layer's
  weights and bias and Wb, bb for the second's. The body first forms the mean row: entry (p, k) of its pooled block divided by
  the count of row p clipped into [1, 50000] (the larger of 1 and the count, then the smaller of 50000 and that); then the
  rectified second layer of the rectified first layer of the mean row. The block of grid point t holds rows 2000·t … 2000·t +
  1999 of P and of C, the weights and biases being whole at every point, so entry (p, j) of the tile is entry (2000·t + p, j)
  of ONE function of the whole arrays; the 25 row blocks cover all 50000 rows, so the output array ends as that function.
  The two clip bounds are kept as the words they are printed with.
-/
import proofs.«134044_j3530463117740_2_alg».proof.Proof.Ideal.Net2
import proofs.«134044_j3530463117740_2_alg».proof.Proof.LibReluLayer
import Idealize.ShloMosaic.Lib.Pipeline.Value
import Idealize.ShloMosaic.Lib.ValueIdx
import Idealize.ShloMosaic.Lib.ValueLayout

set_option maxRecDepth 16384

noncomputable section

namespace Cert.KernelIdeal.Net2Value

open Cert.KernelIdeal Cert.KernelIdeal.Gen
open Idealize.ShloMosaic Idealize.ShloMosaic.TcCoe Idealize.SL.Sem Idealize.ShloMosaic.ValueIdx
open Idealize.ShloMosaic.Pipeline (Dat)

/-! ## The tile's two products are plain matrix products -/

theorem plainA : PlainDot.IsPlain dot_S2000x512_S512x512_S2000x512_1_0_0_1_n_n :=
  ⟨rfl, rfl, fun _ _ => rfl, fun _ _ => rfl, fun _ _ => rfl, fun _ _ => rfl⟩
theorem plainB : PlainDot.IsPlain dot_S2000x512_S512x128_S2000x128_1_0_0_1_n_n :=
  ⟨rfl, rfl, fun _ _ => rfl, fun _ _ => rfl, fun _ _ => rfl, fun _ _ => rfl⟩

/-! ## The mean and the tile at an index -/

/-- A pooled entry divided by its row's count clipped into [1, 50000]. -/
def mean (p cnt : EReal) : EReal :=
  Ideal.div p (min (Ideal.ofBits .f32 0x47435000#32) (max (Ideal.ofBits .f32 0x3F800000#32) cnt))

/-- Entry (p, j) of the 2000 × 128 tile: two rectified layers on the mean row p. -/
theorem tile_apply (v0 : Vec Ideal S2000x1 .f32) (v6 : Vec Ideal S2000x512 .f32) (v11 : Vec Ideal S512x512 .bf16)
    (v14 : Vec Ideal S512 .f32) (v21 : Vec Ideal S512x128 .bf16) (v24 : Vec Ideal S128 .f32) (p : Fin 2000) (j : Fin 128) :
    k1_pay1 v0 v6 v11 v14 v21 v24 (ix2 p j)
      = ReluLayer.two (fun k : Fin 512 => mean (v6 (ix2 p k)) (v0 (ix2 p (0 : Fin 1)))) (fun (k : Fin 512) (h : Fin 512) => v11 (ix2 k h))
          (fun h : Fin 512 => v14 (ix1 h)) (fun h : Fin 512 => v21 (ix2 h j)) (v24 (ix1 j)) := by
  unfold k1_pay1
  refine (ReluLayer.tile_apply dot_S2000x512_S512x128_S2000x128_1_0_0_1_n_n plainB none _ v21 v24 _ _ _ p j).trans ?_
  unfold ReluLayer.two
  congr 1
  funext h
  rw [truncf_apply]
  refine (ReluLayer.tile_apply dot_S2000x512_S512x512_S2000x512_1_0_0_1_n_n plainA none _ v11 v14 _ _ _ p h).trans ?_
  congr 1
  funext k
  rw [truncf_apply, divf_apply, shapeCast_self, Keepdims.broadcastTo_a1_ab_apply _ _ p k, minimumf_apply, maximumf_apply, shapeCast_self]
  rfl

/-! ## The whole-array function -/

/-- The new node vectors on whole arrays. -/
def nodesOf (P : FVec Ideal S50000x512 .f32) (C : FVec Ideal S50000x1 .f32) (Wa : FVec Ideal S512x512 .bf16) (ba : FVec Ideal S512 .f32)
    (Wb : FVec Ideal S512x128 .bf16) (bb : FVec Ideal S128 .f32) : FVec Ideal S50000x128 .f32 :=
  fun i => ReluLayer.two (fun k : Fin 512 => mean (P (ix2 (⟨(i 0).val, idx2_lt0 i⟩ : Fin 50000) k)) (C (ix2 (⟨(i 0).val, idx2_lt0 i⟩ : Fin 50000) (0 : Fin 1))))
    (fun (k : Fin 512) (h : Fin 512) => Wa (ix2 k h)) (fun h : Fin 512 => ba (ix1 h))
    (fun h : Fin 512 => Wb (ix2 h (⟨(i 1).val, idx2_lt1 i⟩ : Fin 128))) (bb (ix1 (⟨(i 1).val, idx2_lt1 i⟩ : Fin 128)))

/-! ## The blocks at an index -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the pooled, counts and output windows are at row block t, column block 0; the
    weights and biases are at block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem t_lt (t : Fin cfg1.N) : t.val < 25 := lt_of_lt_of_eq t.isLt N_1

theorem pooled_apply (c : Dev nD) (t : Fin cfg1.N) (p : Fin 2000) (k : Fin 512) :
    Net2.blk V c 0 t (ix2 p k) = V c main_v40 (ix2 (⟨2000 * t.val + p.val, by have := t_lt t; omega⟩ : Fin 50000) k) := by
  obtain ⟨e0, e1, -⟩ := idx_facts t
  show V c main_v40 (((cfg1.win 0).blk t).view.emb (ix2 p k)) = _
  congr 1
  funext a; apply Fin.ext
  match a with
  | ⟨0, _⟩ => show win1_0.index t (0 : Fin 2) * 2000 + 1 * p.val = 2000 * t.val + p.val; omega
  | ⟨1, _⟩ => show win1_0.index t (1 : Fin 2) * 512 + 1 * k.val = k.val; omega

theorem count_apply (c : Dev nD) (t : Fin cfg1.N) (p : Fin 2000) :
    Net2.blk V c 1 t (ix2 p (0 : Fin 1)) = V c main_v51 (ix2 (⟨2000 * t.val + p.val, by have := t_lt t; omega⟩ : Fin 50000) (0 : Fin 1)) := by
  obtain ⟨-, -, e0, e1, -⟩ := idx_facts t
  show V c main_v51 (((cfg1.win 1).blk t).view.emb (ix2 p (0 : Fin 1))) = _
  congr 1
  funext a; apply Fin.ext
  match a with
  | ⟨0, _⟩ => show win1_1.index t (0 : Fin 2) * 2000 + 1 * p.val = 2000 * t.val + p.val; omega
  | ⟨1, _⟩ => show win1_1.index t (1 : Fin 2) * 1 + 1 * 0 = 0; omega

theorem wa_apply (c : Dev nD) (t : Fin cfg1.N) (k : Fin 512) (h : Fin 512) :
    Net2.blk V c 2 t (ix2 k h) = V c main_v52 (ix2 k h) := by
  obtain ⟨-, -, -, -, e0, e1, -⟩ := idx_facts t
  show V c main_v52 (((cfg1.win 2).blk t).view.emb (ix2 k h)) = _
  congr 1
  funext a; apply Fin.ext
  match a with
  | ⟨0, _⟩ => show win1_2.index t (0 : Fin 2) * 512 + 1 * k.val = k.val; omega
  | ⟨1, _⟩ => show win1_2.index t (1 : Fin 2) * 512 + 1 * h.val = h.val; omega

theorem ba_apply (c : Dev nD) (t : Fin cfg1.N) (h : Fin 512) :
    Net2.blk V c 3 t (ix1 h) = V c main_arg8 (ix1 h) := by
  obtain ⟨-, -, -, -, -, -, e0, -⟩ := idx_facts t
  show V c main_arg8 (((cfg1.win 3).blk t).view.emb (ix1 h)) = _
  congr 1
  funext a; apply Fin.ext
  match a with
  | ⟨0, _⟩ => show win1_3.index t (0 : Fin 1) * 512 + 1 * h.val = h.val; omega

theorem wb_apply (c : Dev nD) (t : Fin cfg1.N) (h : Fin 512) (j : Fin 128) :
    Net2.blk V c 4 t (ix2 h j) = V c main_v53 (ix2 h j) := by
  obtain ⟨-, -, -, -, -, -, -, e0, e1, -⟩ := idx_facts t
  show V c main_v53 (((cfg1.win 4).blk t).view.emb (ix2 h j)) = _
  congr 1
  funext a; apply Fin.ext
  match a with
  | ⟨0, _⟩ => show win1_4.index t (0 : Fin 2) * 512 + 1 * h.val = h.val; omega
  | ⟨1, _⟩ => show win1_4.index t (1 : Fin 2) * 128 + 1 * j.val = j.val; omega

theorem bb_apply (c : Dev nD) (t : Fin cfg1.N) (j : Fin 128) :
    Net2.blk V c 5 t (ix1 j) = V c main_arg10 (ix1 j) := by
  obtain ⟨-, -, -, -, -, -, -, -, -, e0, -⟩ := idx_facts t
  show V c main_arg10 (((cfg1.win 5).blk t).view.emb (ix1 j)) = _
  congr 1
  funext a; apply Fin.ext
  match a with
  | ⟨0, _⟩ => show win1_5.index t (0 : Fin 1) * 128 + 1 * j.val = j.val; omega

/-! ## The output array (window 6) -/

/-- What point t writes back is block t of `nodesOf` of the entry arrays. -/
theorem nodes_flushed (c : Dev nD) (t : Fin cfg1.N) :
    (Net2.dat V c).flushed 6 t = ((cfg1.win 6).blk t).view.read (Elt Ideal) (nodesOf (V c main_v40) (V c main_v51) (V c main_v52) (V c main_arg8) (V c main_v53) (V c main_arg10)) := by
  show (cfg1.win 6).cut (grid1.coords t) ((Net2.dat V c).after 6 t) = _
  rw [Net2.after6]
  unfold Net2.nodeOut
  rw [View.canon_unit_zero hz2]
  simp only [View.ld_unit_zero (S := S2000x512) hz2, View.ld_unit_zero (S := S2000x1) hz2, View.ld_unit_zero (S := S512x512) hz2,
    View.ld_unit_zero (S := S512) hz1, View.ld_unit_zero (S := S512x128) hz2, View.ld_unit_zero (S := S128) hz1]
  obtain ⟨-, -, -, -, -, -, -, -, -, -, e60, e61⟩ := idx_facts t
  funext y
  obtain ⟨p, q, rfl⟩ : ∃ (p : Fin 2000) (q : Fin 128), y = ix2 p q := ⟨y 0, y 1, eq_ix2 y⟩
  have hemb : ((cfg1.win 6).blk t).view.emb (ix2 p q) = ix2 (⟨2000 * t.val + p.val, by have := t_lt t; omega⟩ : Fin 50000) q := by
    funext a; apply Fin.ext
    match a with
    | ⟨0, _⟩ => show win1_6.index t (0 : Fin 2) * 2000 + 1 * p.val = 2000 * t.val + p.val; omega
    | ⟨1, _⟩ => show win1_6.index t (1 : Fin 2) * 128 + 1 * q.val = q.val; omega
  show k1_pay1 (Net2.blk V c 1 t) (Net2.blk V c 0 t) (Net2.blk V c 2 t) (Net2.blk V c 3 t) (Net2.blk V c 4 t) (Net2.blk V c 5 t) (ix2 p q)
    = nodesOf (V c main_v40) (V c main_v51) (V c main_v52) (V c main_arg8) (V c main_v53) (V c main_arg10) (((cfg1.win 6).blk t).view.emb (ix2 p q))
  rw [hemb, tile_apply]
  unfold nodesOf
  simp only [pooled_apply V c t, count_apply V c t, wa_apply V c t, ba_apply V c t, wb_apply V c t, bb_apply V c t]

/-- Every index of the array lies in the block of the point its row falls in. -/
theorem nodes_cover (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  let t : Fin cfg1.N := ⟨(i 0).val / 2000, by rw [show cfg1.N = 25 from N_1]; omega⟩
  obtain ⟨-, -, -, -, -, -, -, -, -, -, e60, e61⟩ := idx_facts t
  refine ⟨t, flush1_6 t, ?_⟩
  show i ∈ ((View.whole main_v54).slice (win1_6.rect t)).set
  rw [View.set_slice_whole, Rect.mem_set_unit]
  intro a
  have ht : t.val = (i 0).val / 2000 := rfl
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The new node vectors after the node network. -/
theorem nodes_final (c : Dev nD) : (Net2.dat V c).arrAt 6 cfg1.N = nodesOf (V c main_v40) (V c main_v51) (V c main_v52) (V c main_arg8) (V c main_v53) (V c main_arg10) :=
  (Net2.dat V c).arrAt_eq_of_cover 6 _ (fun t _ => nodes_flushed V c t) (nodes_cover)

end Cert.KernelIdeal.Net2Value

end
-- ==== Proof.RefValue.lean ====
/-
  The reference program's two networks read at an index on the extended reals. Its edge network is a 200000 × 1152 array:
  entry (r, j) is the rectified second layer of the rectified first layer of row r of the joined edge features, and the subject
  messages, new predicate vectors and object messages are its columns 0 … 511, 512 … 639 and 640 … 1151. Its node network's
  entry (r, j) is the rectified second layer of the rectified first layer of the mean row r: the pooled entry (r, k) divided by
  the count of node r clipped into [1, 50000] — the reference clips the vector of counts first and spreads it as a column and
  across the 512 lanes afterwards, which at entry (r, k) reads the clipped count of node r. The joined features, the pooled
  messages and the counts are left as the stages they are; nothing here opens a gather, a join or a scatter.
-/
import proofs.«134044_j3530463117740_2_alg».proof.Proof.Gen.ReferenceIdeal.Read
import proofs.«134044_j3530463117740_2_alg».proof.Proof.LibReluLayer
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

theorem plain19 : PlainDot.IsPlain dot_S200000x384_S384x512_S200000x512_1_0_0_1_n_n :=
  ⟨rfl, rfl, fun _ _ => rfl, fun _ _ => rfl, fun _ _ => rfl, fun _ _ => rfl⟩
theorem plain24 : PlainDot.IsPlain dot_S200000x512_S512x1152_S200000x1152_1_0_0_1_n_n :=
  ⟨rfl, rfl, fun _ _ => rfl, fun _ _ => rfl, fun _ _ => rfl, fun _ _ => rfl⟩
theorem plain67 : PlainDot.IsPlain dot_S50000x512_S512x512_S50000x512_1_0_0_1_n_n :=
  ⟨rfl, rfl, fun _ _ => rfl, fun _ _ => rfl, fun _ _ => rfl, fun _ _ => rfl⟩
theorem plain72 : PlainDot.IsPlain dot_S50000x512_S512x128_S50000x128_1_0_0_1_n_n :=
  ⟨rfl, rfl, fun _ _ => rfl, fun _ _ => rfl, fun _ _ => rfl, fun _ _ => rfl⟩

/-! ## The edge network -/

/-- Entry (r, j) of the 200000 × 1152 second-layer output. -/
theorem wide_apply (x0 : (⟨S50000x128, .f32⟩ : BufTy).Contents (Elt Ideal)) (x1 : (⟨S200000x128, .f32⟩ : BufTy).Contents (Elt Ideal)) (x2 : (⟨S200000x2, .i32⟩ : BufTy).Contents (Elt Ideal)) (x3 : (⟨S384x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (r : Fin 200000) (j : Fin 1152) :
    val_main_v28 (F := Ideal) x0 x1 x2 x3 x4 x5 x6 (ix2 r j)
      = ReluLayer.two (fun l : Fin 384 => val_main_v18 (F := Ideal) x0 x1 x2 (ix2 r l)) (fun (l : Fin 384) (h : Fin 512) => x3 (ix2 l h))
          (fun h : Fin 512 => x4 (ix1 h)) (fun h : Fin 512 => x5 (ix2 h j)) (x6 (ix1 j)) := by
  unfold val_main_v28 val_main_v27 val_main_v24 val_main_v26 val_main_v25 val_main_call1_v0 val_main_call1_cst
  refine (ReluLayer.host_apply dot_S200000x512_S512x1152_S200000x1152_1_0_0_1_n_n plain24 none _ x5 x6 _ _ _ r j).trans ?_
  unfold ReluLayer.two
  refine congrArg (fun f => ReluLayer.unit f _ _) (funext fun h => ?_)
  unfold val_main_v23 val_main_v22 val_main_v19 val_main_v21 val_main_v20 val_main_call0_v0 val_main_call0_cst
  exact ReluLayer.host_apply dot_S200000x384_S384x512_S200000x512_1_0_0_1_n_n plain19 none _ x3 x4 _ _ _ r h

/-- The subj slice at an index: column 0 + (its column) of the wide output. -/
theorem subj_apply (x0 : (⟨S50000x128, .f32⟩ : BufTy).Contents (Elt Ideal)) (x1 : (⟨S200000x128, .f32⟩ : BufTy).Contents (Elt Ideal)) (x2 : (⟨S200000x2, .i32⟩ : BufTy).Contents (Elt Ideal)) (x3 : (⟨S384x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (i : S200000x512.Idx) :
    val_main_v29 (F := Ideal) x0 x1 x2 x3 x4 x5 x6 i
      = val_main_v28 (F := Ideal) x0 x1 x2 x3 x4 x5 x6 (ix2 (⟨(i 0).val, idx2_lt0 i⟩ : Fin 200000) (⟨0 + (i 1).val, by have := idx2_lt1 i; omega⟩ : Fin 1152)) := by
  rw [val_main_v29_apply]
  congr 1
  funext a; apply Fin.ext
  match a with
  | ⟨0, _⟩ => rfl
  | ⟨1, _⟩ => show _ = 0 + (i 1).val; simp

/-- The pred slice at an index: column 512 + (its column) of the wide output. -/
theorem pred_apply (x0 : (⟨S50000x128, .f32⟩ : BufTy).Contents (Elt Ideal)) (x1 : (⟨S200000x128, .f32⟩ : BufTy).Contents (Elt Ideal)) (x2 : (⟨S200000x2, .i32⟩ : BufTy).Contents (Elt Ideal)) (x3 : (⟨S384x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (i : S200000x128.Idx) :
    val_main_v30 (F := Ideal) x0 x1 x2 x3 x4 x5 x6 i
      = val_main_v28 (F := Ideal) x0 x1 x2 x3 x4 x5 x6 (ix2 (⟨(i 0).val, idx2_lt0 i⟩ : Fin 200000) (⟨512 + (i 1).val, by have := idx2_lt1 i; omega⟩ : Fin 1152)) := by
  rw [val_main_v30_apply]
  congr 1
  funext a; apply Fin.ext
  match a with
  | ⟨0, _⟩ => rfl
  | ⟨1, _⟩ => show _ = 512 + (i 1).val; rfl

/-- The obj slice at an index: column 640 + (its column) of the wide output. -/
theorem obj_apply (x0 : (⟨S50000x128, .f32⟩ : BufTy).Contents (Elt Ideal)) (x1 : (⟨S200000x128, .f32⟩ : BufTy).Contents (Elt Ideal)) (x2 : (⟨S200000x2, .i32⟩ : BufTy).Contents (Elt Ideal)) (x3 : (⟨S384x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (i : S200000x512.Idx) :
    val_main_v31 (F := Ideal) x0 x1 x2 x3 x4 x5 x6 i
      = val_main_v28 (F := Ideal) x0 x1 x2 x3 x4 x5 x6 (ix2 (⟨(i 0).val, idx2_lt0 i⟩ : Fin 200000) (⟨640 + (i 1).val, by have := idx2_lt1 i; omega⟩ : Fin 1152)) := by
  rw [val_main_v31_apply]
  congr 1
  funext a; apply Fin.ext
  match a with
  | ⟨0, _⟩ => rfl
  | ⟨1, _⟩ => show _ = 640 + (i 1).val; rfl

/-! ## The node network -/

/-- Entry (r, j) of the new node vectors. -/
theorem nodes_apply (x0 : (⟨S50000x128, .f32⟩ : BufTy).Contents (Elt Ideal)) (x1 : (⟨S200000x128, .f32⟩ : BufTy).Contents (Elt Ideal)) (x2 : (⟨S200000x2, .i32⟩ : BufTy).Contents (Elt Ideal)) (x3 : (⟨S384x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (x7 : (⟨S512x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) (r : Fin 50000) (j : Fin 128) :
    val_main_v76 (F := Ideal) x0 x1 x2 x3 x4 x5 x6 x7 x8 x9 x10 (ix2 r j)
      = ReluLayer.two (fun k : Fin 512 => Ideal.div (val_main_v46 (F := Ideal) x0 x1 x2 x3 x4 x5 x6 (ix2 r k))
            (min (Ideal.ofBits .f32 0x47435000#32) (max (Ideal.ofBits .f32 0x3F800000#32) (val_main_v62 (F := Ideal) x2 (ix1 r)))))
          (fun (k : Fin 512) (h : Fin 512) => x7 (ix2 k h)) (fun h : Fin 512 => x8 (ix1 h)) (fun h : Fin 512 => x9 (ix2 h j)) (x10 (ix1 j)) := by
  unfold val_main_v76 val_main_v75 val_main_v72 val_main_v74 val_main_v73 val_main_call4_v0 val_main_call4_cst
  refine (ReluLayer.host_apply dot_S50000x512_S512x128_S50000x128_1_0_0_1_n_n plain72 none _ x9 x10 _ _ _ r j).trans ?_
  unfold ReluLayer.two
  refine congrArg (fun f => ReluLayer.unit f _ _) (funext fun h => ?_)
  unfold val_main_v71 val_main_v70 val_main_v67 val_main_v69 val_main_v68 val_main_call3_v0 val_main_call3_cst
  refine (ReluLayer.host_apply dot_S50000x512_S512x512_S50000x512_1_0_0_1_n_n plain67 none _ x7 x8 _ _ _ r h).trans ?_
  refine congrArg (fun f => ReluLayer.unit f _ _) (funext fun k => ?_)
  unfold val_main_v66 val_main_v65 val_main_v64 val_main_v63 val_main_call2_v2
  generalize val_main_v46 (F := Ideal) x0 x1 x2 x3 x4 x5 x6 = P
  generalize val_main_v62 (F := Ideal) x2 = C
  show Ideal.div (P (ix2 r k)) _ = _
  rw [broadcastInDim_apply ![0, 1] bcast_S50000x1_S50000x512_0_1 _ (ix2 r k) (ix2 r (0 : Fin 1)) (fun a => match a with
      | ⟨0, _⟩ => rfl
      | ⟨1, _⟩ => rfl),
    broadcastInDim_apply ![0] bcast_S50000_S50000x1_0 _ (ix2 r (0 : Fin 1)) (ix1 r) (fun a => match a with
      | ⟨0, _⟩ => rfl)]
  rfl

end Cert.ReferenceIdeal.RefValue

end
-- ==== Proof.LibVecRows.lean ====
/-
  Gathering entries of a vector and scatter-adding into a vector, read at one position.

Taking entries `x[idx]` of a vector `x : [N]` at a column of positions `idx : [E, 1]` is StableHLO's gather with no
offset axis, collapsed axis 0, start index map [0], index vector axis 1 and slices of one element: result entry `e`
is `x` at position `idx[e, 0]`, where the position is read as a signed integer and then clamped into `[0, N − 1]`,
so a negative position reads the first entry and a position at or beyond `N` reads the last.  The accumulating
scatter with no update window axis, inserted window axis 0, scatter-to-operand map [0] and index vector axis 1 treats
positions differently: update entry `e` is added to operand entry `idx[e, 0]` only when that position, read signed
and left as it is (no clamping), already lies in `[0, N)`; an update whose position is negative or at least `N`
is discarded.  Over the extended reals the scattered vector at entry `i` is thus the operand's entry `i` plus the sum
of the update entries `e` whose position equals `i`.
-/
import Idealize.ShloMosaic.PureOps.Ideal
import Idealize.ShloMosaic.Lib.ValueIdx

noncomputable section

open scoped BigOperators

namespace Cert.LibVecRows

open Idealize.ShloMosaic Idealize.ShloMosaic.ValueIdx

/-! ## The gather of entries -/

section Gather
variable {α : Type}

/-- The dimension numbers of an entry gather: operand `[N]`, positions `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry the gather reads for result entry `e`: the position `idx[e, 0]` as a signed integer, clamped into
    `[0, N − 1]` (negative positions go to `0`, positions past the end go to `N − 1`). -/
def gatherPos {N E w : Nat} (hN : 0 < N) (idx : IVec ⟨2, ![E, 1]⟩ w) (e : Fin E) : Fin N :=
  ⟨min (idx (ix2 e 0)).toInt.toNat (N - 1), by omega⟩

/-- THE ENTRY GATHER READ AT `e`: the operand at the clamped position. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherPos hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## The accumulating scatter of entries -/

section Scatter

/-- The dimension numbers of an entry scatter: operand `[N]`, positions `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An operand axis carries a window coordinate exactly when it is not an inserted axis. -/
theorem mem_sKept {s si u : Shape} (d : ScatterDims s si u) (a : Fin s.rank) : a ∈ d.sKept ↔ a ∉ d.insertedWindowDims := by
  simp [ScatterDims.sKept, Shape.kept, List.mem_filter, List.mem_finRange]

variable {N E w : Nat} (wf : ScatterDims.WF ⟨1, ![N]⟩ ⟨2, ![E, 1]⟩ ⟨1, ![E]⟩ [] [0] [0] 1)

/-- On the operand's one axis the window starts at the position `idx[e, 0]`, read signed and not clamped. -/
theorem start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted, so the window coordinate on it is `0`. -/
theorem window0 (e : Fin E) : (vecScatterDims N E wf).window (ix1 e) 0 = 0 := by
  unfold ScatterDims.window
  rw [dif_neg (show (0 : Fin 1) ∉ (vecScatterDims N E wf).sKept from fun h => ((mem_sKept _ _).mp h) (List.mem_singleton.mpr rfl))]

/-- Update entry `e` lands on operand entry `i` exactly when `e`'s position, read signed and not clamped, is `i`;
    a position outside `[0, N)` equals no `i`, so such an update lands nowhere. -/
theorem resultIdx?_vec_iff (idx : IVec ⟨2, ![E, 1]⟩ w) (e : Fin E) (i : Fin N) :
    (vecScatterDims N E wf).resultIdx? (ix1 e) idx = some (ix1 i) ↔ (idx (ix2 e 0)).toInt = (i.val : Int) := by
  have hs0 := start0 wf idx e
  have hw0 := window0 wf e
  unfold ScatterDims.resultIdx?
  split
  · rename_i h
    rw [Option.some.injEq]
    constructor
    · intro hf
      have h0 := congrArg (fun f => (f 0).val) hf
      simp only [hs0, hw0] at h0
      have hh := (h 0).1
      rw [hs0, hw0] at hh
      have : ((idx (ix2 e 0)).toInt + ((0 : Nat) : Int)).toNat = i.val := h0
      omega
    · intro hi
      funext a
      obtain rfl : a = 0 := Subsingleton.elim _ _
      refine Fin.ext ?_
      show ((vecScatterDims N E wf).start (ix1 e) idx 0 + ((vecScatterDims N E wf).window (ix1 e) 0 : Nat)).toNat = i.val
      rw [hs0, hw0, hi]; simp
  · rename_i h
    constructor
    · intro hf; exact absurd hf (by simp)
    · intro hi
      exfalso
      apply h
      intro a
      obtain rfl : a = 0 := Subsingleton.elim _ _
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0, hi]
      have := i.isLt
      constructor <;> omega

/-- THE ENTRY SCATTER-ADD READ AT `i` over the extended reals: the operand's entry plus the sum of the update entries
    whose position is `i`. -/
theorem scatterAdd_vec_apply (x : (⟨1, ![N]⟩ : Shape).Idx → EReal) (idx : IVec ⟨2, ![E, 1]⟩ w)
    (U : (⟨1, ![E]⟩ : Shape).Idx → EReal) (i : Fin N) :
    Host.scatterAdd (F := Ideal) (φ := .f32) (vecScatterDims N E wf) x idx U (ix1 i)
      = x (ix1 i) + ∑ e ∈ Finset.univ.filter (fun e : Fin E => (idx (ix2 e 0)).toInt = (i.val : Int)), U (ix1 e) := by
  show Ideal.hostScatterAdd (vecScatterDims N E wf) x idx U (ix1 i) = _
  unfold Ideal.hostScatterAdd
  congr 1
  refine Finset.sum_bij (fun u _ => (u 0 : Fin E)) ?_ ?_ ?_ ?_
  · intro u hu
    rw [Finset.mem_filter] at hu
    rw [eq_ix1 u] at hu
    exact Finset.mem_filter.mpr ⟨Finset.mem_univ _, (resultIdx?_vec_iff wf idx _ i).mp hu.2⟩
  · intro u _ u' _ h
    rw [eq_ix1 u, eq_ix1 u']
    have h' : (u 0 : Fin E) = (u' 0 : Fin E) := h
    rw [h']
  · intro e he
    rw [Finset.mem_filter] at he
    refine ⟨ix1 e, ?_, rfl⟩
    rw [Finset.mem_filter]
    exact ⟨Finset.mem_univ _, (resultIdx?_vec_iff wf idx e i).mpr he.2⟩
  · intro u _
    conv_lhs => rw [eq_ix1 u]
    rfl

end Scatter

end Cert.LibVecRows

end
-- ==== Proof.LibSplitSum.lean ====
/-
  A finite sum over a range of K₁ + K₂ positions, split into its first K₁ and its last K₂ positions: if the summand is
  f on the first block (position k) and g on the second (position K₁ + k), the sum is Σ f + Σ g. Stated over any
  additive commutative monoid, so it needs no finiteness of the values and no cancellation; the range is written as
  `Fin K` with `K₁ + K₂ = K` a hypothesis, so that it applies to a literal extent such as 64 = 32 + 32.
-/
import Mathlib.Algebra.BigOperators.Fin

namespace SplitSum

open scoped BigOperators

/-- A sum over `K = K₁ + K₂` positions of a function that is `f` on the first `K₁` positions and `g` on the last `K₂`
    is the sum of `f` plus the sum of `g`. -/
theorem sum_eq_add_of_blocks {M : Type*} [AddCommMonoid M] {K K₁ K₂ : ℕ} (hK : K₁ + K₂ = K)
    (F : Fin K → M) (f : Fin K₁ → M) (g : Fin K₂ → M)
    (hf : ∀ k : Fin K₁, F ⟨k.val, by have := k.isLt; omega⟩ = f k)
    (hg : ∀ k : Fin K₂, F ⟨K₁ + k.val, by have := k.isLt; omega⟩ = g k) :
    ∑ k, F k = ∑ k, f k + ∑ k, g k := by
  subst hK
  rw [Fin.sum_univ_add]
  congr 1
  · exact Finset.sum_congr rfl fun k _ => hf k
  · exact Finset.sum_congr rfl fun k _ => hg k

end SplitSum
-- ==== Proof.LibMergedCounts.lean ====
/-
  Counting by one scatter over joined positions, or by two scatters in a row. Let A and B be two columns of E positions and
  let the column `cat` of 2E positions hold A's entries first and B's after. Scatter-adding one constant u per position into a
  vector z over `cat` gives, at entry i, z(i) plus u for every position of `cat` equal to i; scatter-adding u per position of
  A and then u per position of B gives z(i) plus u for every position of A equal to i, plus u for every position of B equal
  to i. The two agree: a sum over the 2E joined positions splits into the sum over the first E and the sum over the last E,
  and addition on the extended reals is associative — no finiteness of u or z is used. A position outside the vector matches
  no entry in either arrangement. Nothing here depends on a program.
-/
import proofs.«134044_j3530463117740_2_alg».proof.Proof.LibVecRows
import proofs.«134044_j3530463117740_2_alg».proof.Proof.LibSplitSum

noncomputable section

open scoped BigOperators

namespace MergedCounts

open Idealize.ShloMosaic Idealize.ShloMosaic.ValueIdx Cert.LibVecRows

/-- One scatter of the constant `u` over the joined positions equals the two scatters in a row, entry by entry. -/
theorem scatter_joined {N E E2 w : ℕ} (hE : E + E = E2)
    (wf2 : ScatterDims.WF ⟨1, ![N]⟩ ⟨2, ![E2, 1]⟩ ⟨1, ![E2]⟩ [] [0] [0] 1)
    (wf1 : ScatterDims.WF ⟨1, ![N]⟩ ⟨2, ![E, 1]⟩ ⟨1, ![E]⟩ [] [0] [0] 1)
    (z : (⟨1, ![N]⟩ : Shape).Idx → EReal) (u : EReal)
    (cat : IVec ⟨2, ![E2, 1]⟩ w) (A B : IVec ⟨2, ![E, 1]⟩ w)
    (hA : ∀ e : Fin E, cat (ix2 (⟨e.val, by have := e.isLt; omega⟩ : Fin E2) 0) = A (ix2 e 0))
    (hB : ∀ e : Fin E, cat (ix2 (⟨E + e.val, by have := e.isLt; omega⟩ : Fin E2) 0) = B (ix2 e 0)) (i : Fin N) :
    Host.scatterAdd (F := Ideal) (φ := .f32) (vecScatterDims N E2 wf2) z cat (fun _ => u) (ix1 i)
      = Host.scatterAdd (F := Ideal) (φ := .f32) (vecScatterDims N E wf1)
          (Host.scatterAdd (F := Ideal) (φ := .f32) (vecScatterDims N E wf1) z A (fun _ => u)) B (fun _ => u) (ix1 i) := by
  rw [scatterAdd_vec_apply, scatterAdd_vec_apply, scatterAdd_vec_apply, add_assoc]
  congr 1
  simp only [Finset.sum_filter]
  exact SplitSum.sum_eq_add_of_blocks hE
    (fun e : Fin E2 => if (cat (ix2 e 0)).toInt = (i.val : Int) then u else 0)
    (fun e : Fin E => if (A (ix2 e 0)).toInt = (i.val : Int) then u else 0)
    (fun e : Fin E => if (B (ix2 e 0)).toInt = (i.val : Int) then u else 0)
    (fun k => by show (if (cat (ix2 _ 0)).toInt = (i.val : Int) then u else 0) = _; rw [hA k])
    (fun k => by show (if (cat (ix2 _ 0)).toInt = (i.val : Int) then u else 0) = _; rw [hB k])

end MergedCounts

end
-- ==== Proof.Bridge.lean ====
/-
  The kernel's arrays and the reference's stages are the same functions of the argument arrays, on the extended reals.
  Write X for the joined edge features (the reference's own stage: the kernel's join is that stage of the same arguments).
  • Edge network. Both sides' entry (r, j) of the 1152-wide output is the rectified second layer of the rectified first layer
    of row r of X; the subject messages, new predicate vectors and object messages are its columns from 0, 512 and 640 on
    both sides.
  • Pooling. Both sides scatter-add the subject messages and then the object messages into zeros at the same positions: one
    function of equal arrays.
  • Counts. The kernel adds a one at each of the 400000 joined positions in one scatter; the reference adds a one at each of
    the 200000 subject positions and then at each of the 200000 object positions. Entry i is, on both sides, the number of
    subject positions equal to i plus the number of object positions equal to i: a sum over the joined positions splits into
    the sum over its first half and the sum over its second half. Moving a negative position up by 50000 is done entry by
    entry, so it commutes with the join.
  • Node network. Both sides' entry (r, j) is the rectified second layer of the rectified first layer of the mean row r, the
    pooled entry (r, k) divided by the count of node r clipped into [1, 50000]; the kernel clips the count's column entry and
    the reference the count's vector entry, which are the same number.
  No step uses that an input is finite: sums are only regrouped, never distributed over or cancelled.
-/
import proofs.«134044_j3530463117740_2_alg».proof.Proof.Ideal.Glue
import proofs.«134044_j3530463117740_2_alg».proof.Proof.Ideal.Net1Value
import proofs.«134044_j3530463117740_2_alg».proof.Proof.Ideal.Net2Value
import proofs.«134044_j3530463117740_2_alg».proof.Proof.RefValue
import proofs.«134044_j3530463117740_2_alg».proof.Proof.LibMergedCounts

set_option maxRecDepth 16384

noncomputable section

namespace Cert.Bridge

open Cert.KernelIdeal Cert.KernelIdeal.Gen
open Cert.ReferenceIdeal.Read
open Idealize.ShloMosaic Idealize.ShloMosaic.TcCoe Idealize.SL.Sem Idealize.ShloMosaic.ValueIdx

/-! ## The edge network -/

theorem subj_eq (x0 : FVec Ideal S50000x128 .f32) (x1 : FVec Ideal S200000x128 .f32) (x2 : IVec S200000x2 32) (x3 : FVec Ideal S384x512 .f32) (x4 : FVec Ideal S512 .f32) (x5 : FVec Ideal S512x1152 .f32) (x6 : FVec Ideal S1152 .f32) :
    Net1Value.subjOf (val_main_v18 (F := Ideal) x0 x1 x2) x3 x4 x5 x6 = val_main_v29 (F := Ideal) x0 x1 x2 x3 x4 x5 x6 := by
  funext i
  rw [Cert.ReferenceIdeal.RefValue.subj_apply, Cert.ReferenceIdeal.RefValue.wide_apply]
  rfl
theorem pred_eq (x0 : FVec Ideal S50000x128 .f32) (x1 : FVec Ideal S200000x128 .f32) (x2 : IVec S200000x2 32) (x3 : FVec Ideal S384x512 .f32) (x4 : FVec Ideal S512 .f32) (x5 : FVec Ideal S512x1152 .f32) (x6 : FVec Ideal S1152 .f32) :
    Net1Value.predOf (val_main_v18 (F := Ideal) x0 x1 x2) x3 x4 x5 x6 = val_main_v30 (F := Ideal) x0 x1 x2 x3 x4 x5 x6 := by
  funext i
  rw [Cert.ReferenceIdeal.RefValue.pred_apply, Cert.ReferenceIdeal.RefValue.wide_apply]
  rfl
theorem obj_eq (x0 : FVec Ideal S50000x128 .f32) (x1 : FVec Ideal S200000x128 .f32) (x2 : IVec S200000x2 32) (x3 : FVec Ideal S384x512 .f32) (x4 : FVec Ideal S512 .f32) (x5 : FVec Ideal S512x1152 .f32) (x6 : FVec Ideal S1152 .f32) :
    Net1Value.objOf (val_main_v18 (F := Ideal) x0 x1 x2) x3 x4 x5 x6 = val_main_v31 (F := Ideal) x0 x1 x2 x3 x4 x5 x6 := by
  funext i
  rw [Cert.ReferenceIdeal.RefValue.obj_apply, Cert.ReferenceIdeal.RefValue.wide_apply]
  rfl

/-! ## The pooling -/

theorem pool_eq (x0 : FVec Ideal S50000x128 .f32) (x1 : FVec Ideal S200000x128 .f32) (x2 : IVec S200000x2 32) (x3 : FVec Ideal S384x512 .f32) (x4 : FVec Ideal S512 .f32) (x5 : FVec Ideal S512x1152 .f32) (x6 : FVec Ideal S1152 .f32) :
    Glue.poolOf (val_main_v1 (F := Ideal) x2) (val_main_v3 (F := Ideal) x2) (val_main_v29 (F := Ideal) x0 x1 x2 x3 x4 x5 x6)
        (val_main_v31 (F := Ideal) x0 x1 x2 x3 x4 x5 x6)
      = val_main_v46 (F := Ideal) x0 x1 x2 x3 x4 x5 x6 := by
  unfold val_main_v46 val_main_v39
  generalize val_main_v29 (F := Ideal) x0 x1 x2 x3 x4 x5 x6 = S
  generalize val_main_v31 (F := Ideal) x0 x1 x2 x3 x4 x5 x6 = O
  rfl

/-! ## The counts -/

/-- A joined position in the first half is the subject position, after the move-up. -/
theorem joined_left (s o : IVec S200000 32) (e : Fin 200000) :
    Glue.joinedCol s o (ix2 (⟨e.val, by have := e.isLt; omega⟩ : Fin 400000) (0 : Fin 1)) = Glue.posCol s (ix2 e (0 : Fin 1)) := by
  have hc : Glue.joined s o (ix1 (⟨e.val, by have := e.isLt; omega⟩ : Fin 400000)) = s (ix1 e) :=
    concatenate_pair_apply_left 0 s o concatenates_S200000_S200000_S400000_d0 _ rfl (ix1 e) (fun b => match b with | ⟨0, _⟩ => rfl)
  unfold Glue.joinedCol Glue.posCol
  rw [broadcastInDim_apply ![0] bcast_S400000_S400000x1_0 _ (ix2 (⟨e.val, by have := e.isLt; omega⟩ : Fin 400000) (0 : Fin 1))
      (ix1 (⟨e.val, by have := e.isLt; omega⟩ : Fin 400000)) (fun a => match a with | ⟨0, _⟩ => rfl),
    broadcastInDim_apply ![0] bcast_S200000_S200000x1_0 _ (ix2 e (0 : Fin 1)) (ix1 e) (fun a => match a with | ⟨0, _⟩ => rfl)]
  exact congrArg (fun v : BitVec 32 => (select (cmpi .slt (fun _ : S_.Idx => v) (constantI S_ 32 0#32))
    (addi (fun _ : S_.Idx => v) (constantI S_ 32 50000#32)) (fun _ : S_.Idx => v)) ix0) hc

/-- A joined position in the second half is the object position, after the move-up. -/
theorem joined_right (s o : IVec S200000 32) (e : Fin 200000) :
    Glue.joinedCol s o (ix2 (⟨200000 + e.val, by have := e.isLt; omega⟩ : Fin 400000) (0 : Fin 1)) = Glue.posCol o (ix2 e (0 : Fin 1)) := by
  have hc : Glue.joined s o (ix1 (⟨200000 + e.val, by have := e.isLt; omega⟩ : Fin 400000)) = o (ix1 e) :=
    concatenate_pair_apply_right 0 s o concatenates_S200000_S200000_S400000_d0 _ rfl rfl (ix1 e)
      (fun b hb => match b, hb with | ⟨0, _⟩, hb => absurd (Fin.ext rfl) hb) (Nat.add_comm _ _)
  unfold Glue.joinedCol Glue.posCol
  rw [broadcastInDim_apply ![0] bcast_S400000_S400000x1_0 _ (ix2 (⟨200000 + e.val, by have := e.isLt; omega⟩ : Fin 400000) (0 : Fin 1))
      (ix1 (⟨200000 + e.val, by have := e.isLt; omega⟩ : Fin 400000)) (fun a => match a with | ⟨0, _⟩ => rfl),
    broadcastInDim_apply ![0] bcast_S200000_S200000x1_0 _ (ix2 e (0 : Fin 1)) (ix1 e) (fun a => match a with | ⟨0, _⟩ => rfl)]
  exact congrArg (fun v : BitVec 32 => (select (cmpi .slt (fun _ : S_.Idx => v) (constantI S_ 32 0#32))
    (addi (fun _ : S_.Idx => v) (constantI S_ 32 50000#32)) (fun _ : S_.Idx => v)) ix0) hc

/-- The merged counts are the two-pass counts, entry by entry. -/
theorem counts_eq (x2 : IVec S200000x2 32) (i : Fin 50000) :
    Glue.countsOf (val_main_v1 (F := Ideal) x2) (val_main_v3 (F := Ideal) x2) (ix1 i) = val_main_v62 (F := Ideal) x2 (ix1 i) :=
  MergedCounts.scatter_joined (N := 50000) (E := 200000) (E2 := 400000) rfl
    scatter_S50000_S400000x1_S400000_n_0_0_1_wf Cert.ReferenceIdeal.Facts₀.scatter_S50000_S200000x1_S200000_n_0_0_1_wf
    (fun _ => Ideal.ofBits .f32 0x00000000#32) (Ideal.ofBits .f32 0x3F800000#32)
    (Glue.joinedCol (val_main_v1 (F := Ideal) x2) (val_main_v3 (F := Ideal) x2))
    (Glue.posCol (val_main_v1 (F := Ideal) x2)) (Glue.posCol (val_main_v3 (F := Ideal) x2))
    (joined_left _ _) (joined_right _ _) i

/-! ## The node network -/

theorem nodes_eq (x0 : FVec Ideal S50000x128 .f32) (x1 : FVec Ideal S200000x128 .f32) (x2 : IVec S200000x2 32) (x3 : FVec Ideal S384x512 .f32) (x4 : FVec Ideal S512 .f32) (x5 : FVec Ideal S512x1152 .f32) (x6 : FVec Ideal S1152 .f32) (x7 : FVec Ideal S512x512 .f32) (x8 : FVec Ideal S512 .f32) (x9 : FVec Ideal S512x128 .f32) (x10 : FVec Ideal S128 .f32) :
    Net2Value.nodesOf
        (Glue.poolOf (val_main_v1 (F := Ideal) x2) (val_main_v3 (F := Ideal) x2) (val_main_v29 (F := Ideal) x0 x1 x2 x3 x4 x5 x6)
          (val_main_v31 (F := Ideal) x0 x1 x2 x3 x4 x5 x6))
        (broadcastInDim S50000x1 ![0] bcast_S50000_S50000x1_0 (Glue.countsOf (val_main_v1 (F := Ideal) x2) (val_main_v3 (F := Ideal) x2)))
        x7 x8 x9 x10
      = val_main_v76 (F := Ideal) x0 x1 x2 x3 x4 x5 x6 x7 x8 x9 x10 := by
  rw [pool_eq]
  funext i
  obtain ⟨r, j, rfl⟩ : ∃ (r : Fin 50000) (j : Fin 128), i = ix2 r j := ⟨i 0, i 1, eq_ix2 i⟩
  rw [Cert.ReferenceIdeal.RefValue.nodes_apply]
  generalize val_main_v46 (F := Ideal) x0 x1 x2 x3 x4 x5 x6 = P
  unfold Net2Value.nodesOf Net2Value.mean
  have hcnt : broadcastInDim S50000x1 ![0] bcast_S50000_S50000x1_0 (Glue.countsOf (val_main_v1 (F := Ideal) x2) (val_main_v3 (F := Ideal) x2))
      (ix2 (⟨((ix2 r j : S50000x128.Idx) 0).val, idx2_lt0 (ix2 r j)⟩ : Fin 50000) (0 : Fin 1)) = val_main_v62 (F := Ideal) x2 (ix1 r) := by
    rw [broadcastInDim_apply ![0] bcast_S50000_S50000x1_0 _ _ (ix1 r) (fun a => match a with | ⟨0, _⟩ => rfl)]
    exact counts_eq x2 r
  rw [hcnt]

end Cert.Bridge

end
-- ==== Proof.Claims.lean ====
/-
  The five claims. The kernel program at the word level and its idealization each run to the end with their argument arrays
  unchanged: their @main is run item by item (host stretch, edge network, host stretch, node network), each pallas_call's
  body having been run symbolically once. The reference program is a host program: its run is the generated one. The
  idealization rewrote nothing, so there is nothing to preserve. On the extended reals the idealized kernel program and the
  reference, from memories that agree on the arguments, end with the same new node vectors and the same new predicate vectors:
  the kernel's two results are what its pallas_calls' write-backs leave, which are the reference's stages of the same arguments.
-/
import proofs.«134044_j3530463117740_2_alg».proof.Defs
import proofs.«134044_j3530463117740_2_alg».proof.Proof.Gen.Kernel
import proofs.«134044_j3530463117740_2_alg».proof.Proof.Gen.KernelIdeal
import proofs.«134044_j3530463117740_2_alg».proof.Proof.Gen.ReferenceIdeal
import proofs.«134044_j3530463117740_2_alg».proof.Proof.Gen.Pre_finite_inputs
import proofs.«134044_j3530463117740_2_alg».proof.Proof.Gen.ReferenceIdeal.Run
import proofs.«134044_j3530463117740_2_alg».proof.Proof.Gen.ReferenceIdeal.Read
import proofs.«134044_j3530463117740_2_alg».proof.Proof.Bits.Whole
import proofs.«134044_j3530463117740_2_alg».proof.Proof.Ideal.Whole
import proofs.«134044_j3530463117740_2_alg».proof.Proof.Bridge

set_option maxRecDepth 16384

noncomputable section

namespace Cert.Proof.Claims

open Idealize.ShloMosaic Idealize.ShloMosaic.TcCoe Idealize.SL.Sem
open Cert.KernelIdeal Cert.KernelIdeal.Gen Cert.KernelIdeal.Whole
open Cert.ReferenceIdeal.Read

/-! ## What the idealized kernel program's two results are, as the reference's stages of its own arguments -/

variable (m : (ℓ : Loc nD τ sig) → Buf (Elt Ideal) ℓ)

/-- The new predicate vectors: the edge network's second output array. -/
theorem kernel_preds (c : Dev nD) :
    (Net1.dat (inNet1 m) c).arrAt 6 cfg0.N
      = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Net1Value.pred_final, Glue.feat_in, Glue.wa_in, Glue.ba_in, Glue.wb_in, Glue.bb_in]
  exact Cert.Bridge.pred_eq _ _ _ _ _ _ _

/-- The subject and object messages the edge network leaves, read after it. -/
theorem kernel_subj (c : Dev nD) :
    afterNet1 m c (Proc.devRef .tc main_v23_0) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show afterNet1 m c (Proc.devRef .tc main_v23_0) = (Net1.dat (inNet1 m) c).arrAt 5 cfg0.N from afterNet1_arr m c 5,
    Net1Value.subj_final, Glue.feat_in, Glue.wa_in, Glue.ba_in, Glue.wb_in, Glue.bb_in]
  exact Cert.Bridge.subj_eq _ _ _ _ _ _ _
theorem kernel_obj (c : Dev nD) :
    afterNet1 m c (Proc.devRef .tc main_v23_2) = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show afterNet1 m c (Proc.devRef .tc main_v23_2) = (Net1.dat (inNet1 m) c).arrAt 7 cfg0.N from afterNet1_arr m c 7,
    Net1Value.obj_final, Glue.feat_in, Glue.wa_in, Glue.ba_in, Glue.wb_in, Glue.bb_in]
  exact Cert.Bridge.obj_eq _ _ _ _ _ _ _

/-- The new node vectors: the node network's output array. -/
theorem kernel_nodes (c : Dev nD) :
    (Net2.dat (inNet2 m) c).arrAt 6 cfg1.N
      = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Net2Value.nodes_final, Glue.pooled_in, Glue.counts_in, Glue.w2a_in, Glue.b2a_in, Glue.w2b_in, Glue.b2b_in,
    Glue.subjPos, Glue.objPos, kernel_subj, kernel_obj]
  exact Cert.Bridge.nodes_eq _ _ _ _ _ _ _ _ _ _ _

end Cert.Proof.Claims

namespace Cert.Proof.Claims

open Idealize.ShloMosaic Idealize.ShloMosaic.TcCoe Idealize.SL.Sem

/-! ## The claims -/

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.Read.val_main_v76 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v30 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c).1.trans (kernel_nodes m c), (h c).2.1.trans (kernel_preds m c), (h c).2.2⟩) (Cert.KernelIdeal.Whole.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v76_eq]
      obtain ⟨h0, h1, h2, h3, h4, h5, h6, h7, h8, h9, h10⟩ := hagree c
      rw [h0, h1, h2, h3, h4, h5, h6, h7, h8, h9, h10]
    · rw [Cert.ReferenceIdeal.Read.val_main_v30_eq]
      obtain ⟨h0, h1, h2, h3, h4, h5, h6, -⟩ := hagree c
      rw [h0, h1, h2, h3, h4, h5, h6]

end Cert.Proof.Claims

end
-- ==== Proof.lean ====
/-
  Message passing over a scene graph (a triple convolution): every edge joins its subject's vector, its own predicate vector
  and its object's vector, an edge network of two rectified dense layers turns the 384 joined features into 512 subject
  messages, 128 new predicate features and 512 object messages, each node averages the messages it receives as a subject or
  as an object over the number of its incidences clipped into [1, 50000], and a node network of two rectified dense layers
  turns the averages into the new node vectors. The kernel runs the two networks as two pallas_calls over row blocks, with
  the gather, the scatter-add pooling and the incidence count on the host between them; the reference is one host program.
  The five claims are proved in Proof/Claims.lean; the program's stated side conditions are the generated instances.
-/
import proofs.«134044_j3530463117740_2_alg».proof.Defs
import proofs.«134044_j3530463117740_2_alg».proof.Proof.Gen.Kernel
import proofs.«134044_j3530463117740_2_alg».proof.Proof.Gen.KernelIdeal
import proofs.«134044_j3530463117740_2_alg».proof.Proof.Gen.ReferenceIdeal
import proofs.«134044_j3530463117740_2_alg».proof.Proof.Gen.Pre_finite_inputs
import proofs.«134044_j3530463117740_2_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
